-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S3x64x64 .f32) (main_arg6 : FVec F S3x64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg5
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg6
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg7 main_arg8 main_v33

def fn {F : FTy → Type} [FloatOps F] (main_arg0 : FVec F S524288x128 .f32) (main_arg1 : FVec F S3x64x64 .f32) (main_arg2 : FVec F S3x64 .f32) (main_arg3 : FVec F S64x64 .f32) (main_arg4 : FVec F S64 .f32) (main_arg5 : FVec F S3x64x64 .f32) (main_arg6 : FVec F S3x64 .f32) (main_arg7 : FVec F S64x64 .f32) (main_arg8 : FVec F S64 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S3x64x64 .f32 := Host.absf main_arg1
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg2
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S524288x128 : Shape := ⟨2, ![524288, 128]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S1x64x64 : Shape := ⟨3, ![1, 64, 64]⟩
abbrev S64x128 : Shape := ⟨2, ![64, 128]⟩
abbrev S_ : Shape := ⟨0, ![]⟩
abbrev S128x128 : Shape := ⟨2, ![128, 128]⟩
abbrev S1x64 : Shape := ⟨2, ![1, 64]⟩
abbrev S128 : Shape := ⟨1, ![128]⟩
abbrev S524288 : Shape := ⟨1, ![524288]⟩
abbrev S8192x128 : Shape := ⟨2, ![8192, 128]⟩
abbrev S8192 : Shape := ⟨1, ![8192]⟩
abbrev S8192x64 : Shape := ⟨2, ![8192, 64]⟩
abbrev S1x128 : Shape := ⟨2, ![1, 128]⟩

abbrev nBuf : Space → Nat
  | .hbm => 69
  | .vmem => 14
  | .smem => 0
  | _ => 0

abbrev bufTy : (tb : Table) → Fin (tcTables nBuf tb) → BufTy
  | .hbm, ⟨0, _⟩ => ⟨S524288x128, .f32⟩
  | .hbm, ⟨1, _⟩ => ⟨S3x64x64, .f32⟩
  | .hbm, ⟨2, _⟩ => ⟨S3x64, .f32⟩
  | .hbm, ⟨3, _⟩ => ⟨S64x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S64x64, .f32⟩
  | .hbm, ⟨8, _⟩ => ⟨S64, .f32⟩
  | .hbm, ⟨9, _⟩ => ⟨S3x64x64, .f32⟩
  | .hbm, ⟨10, _⟩ => ⟨S3x64x64, .f32⟩
  | .hbm, ⟨11, _⟩ => ⟨S64x64, .f32⟩
  | .hbm, ⟨12, _⟩ => ⟨S64x64, .f32⟩
  | .hbm, ⟨13, _⟩ => ⟨S1x64x64, .f32⟩
  | .hbm, ⟨14, _⟩ => ⟨S64x64, .f32⟩
  | .hbm, ⟨15, _⟩ => ⟨S1x64x64, .f32⟩
  | .hbm, ⟨16, _⟩ => ⟨S64x64, .f32⟩
  | .hbm, ⟨17, _⟩ => ⟨S64x128, .f32⟩
  | .hbm, ⟨18, _⟩ => ⟨S64x128, .bf16⟩
  | .hbm, ⟨19, _⟩ => ⟨S1x64x64, .f32⟩
  | .hbm, ⟨20, _⟩ => ⟨S64x64, .f32⟩
  | .hbm, ⟨21, _⟩ => ⟨S1x64x64, .f32⟩
  | .hbm, ⟨22, _⟩ => ⟨S64x64, .f32⟩
  | .hbm, ⟨23, _⟩ => ⟨S_, .f32⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x128, .f32⟩
  | .hbm, ⟨28, _⟩ => ⟨S64x128, .f32⟩
  | .hbm, ⟨29, _⟩ => ⟨S128x128, .f32⟩
  | .hbm, ⟨30, _⟩ => ⟨S128x128, .bf16⟩
  | .hbm, ⟨31, _⟩ => ⟨S1x64x64, .f32⟩
  | .hbm, ⟨32, _⟩ => ⟨S64x64, .f32⟩
  | .hbm, ⟨33, _⟩ => ⟨S1x64x64, .f32⟩
  | .hbm, ⟨34, _⟩ => ⟨S64x64, .f32⟩
  | .hbm, ⟨35, _⟩ => ⟨S_, .f32⟩
  | .hbm, ⟨36, _⟩ => ⟨S64x64, .f32⟩
  | .hbm, ⟨37, _⟩ => ⟨S_, .f32⟩
  | .hbm, ⟨38, _⟩ => ⟨S64x64, .f32⟩
  | .hbm, ⟨39, _⟩ => ⟨S64x128, .f32⟩
  | .hbm, ⟨40, _⟩ => ⟨S64x128, .f32⟩
  | .hbm, ⟨41, _⟩ => ⟨S128x128, .f32⟩
  | .hbm, ⟨42, _⟩ => ⟨S128x128, .bf16⟩
  | .hbm, ⟨43, _⟩ => ⟨S_, .f32⟩
  | .hbm, ⟨44, _⟩ => ⟨S64x64, .f32⟩
  | .hbm, ⟨45, _⟩ => ⟨S_, .f32⟩
  | .hbm, ⟨46, _⟩ => ⟨S64x64, .f32⟩
  | .hbm, ⟨47, _⟩ => ⟨S64x128, .f32⟩
  | .hbm, ⟨48, _⟩ => ⟨S64x128, .f32⟩
  | .hbm, ⟨49, _⟩ => ⟨S128x128, .f32⟩
  | .hbm, ⟨50, _⟩ => ⟨S128x128, .bf16⟩
  | .hbm, ⟨51, _⟩ => ⟨S1x64, .f32⟩
  | .hbm, ⟨52, _⟩ => ⟨S64, .f32⟩
  | .hbm, ⟨53, _⟩ => ⟨S1x64, .f32⟩
  | .hbm, ⟨54, _⟩ => ⟨S64, .f32⟩
  | .hbm, ⟨55, _⟩ => ⟨S128, .f32⟩
  | .hbm, ⟨56, _⟩ => ⟨S1x64, .f32⟩
  | .hbm, ⟨57, _⟩ => ⟨S64, .f32⟩
  | .hbm, ⟨58, _⟩ => ⟨S1x64, .f32⟩
  | .hbm, ⟨59, _⟩ => ⟨S64, .f32⟩
  | .hbm, ⟨60, _⟩ => ⟨S128, .f32⟩
  | .hbm, ⟨61, _⟩ => ⟨S1x64, .f32⟩
  | .hbm, ⟨62, _⟩ => ⟨S64, .f32⟩
  | .hbm, ⟨63, _⟩ => ⟨S1x64, .f32⟩
  | .hbm, ⟨64, _⟩ => ⟨S64, .f32⟩
  | .hbm, ⟨65, _⟩ => ⟨S128, .f32⟩
  | .hbm, ⟨66, _⟩ => ⟨S128, .f32⟩
  | .hbm, ⟨67, _⟩ => ⟨S524288x128, .f32⟩
  | .hbm, ⟨68, _⟩ => ⟨S524288, .f32⟩
  | .local _ .vmem, ⟨0, _⟩ => ⟨S8192x128, .f32⟩
  | .local _ .vmem, ⟨1, _⟩ => ⟨S8192x128, .f32⟩
  | .local _ .vmem, ⟨2, _⟩ => ⟨S64x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S128x128, .bf16⟩
  | .local _ .vmem, ⟨9, _⟩ => ⟨S128, .f32⟩
  | .local _ .vmem, ⟨10, _⟩ => ⟨S8192x128, .f32⟩
  | .local _ .vmem, ⟨11, _⟩ => ⟨S8192x128, .f32⟩
  | .local _ .vmem, ⟨12, _⟩ => ⟨S8192, .f32⟩
  | .local _ .vmem, ⟨13, _⟩ => ⟨S8192, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52_0 : Ref sig .tc := ⟨.hbm, 67, rfl⟩
abbrev main_v52_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S3x64x64_S3x64x64_0_2_1 : S3x64x64.Transposes [0, 2, 1] S3x64x64
  transposes_S64x64_S64x64_1_0 : S64x64.Transposes [1, 0] S64x64
  slices_S3x64x64_S1x64x64_0_0_0 : S3x64x64.Slices ![0, 0, 0] S1x64x64
  shapeCasts_S1x64x64_S64x64 : S1x64x64.ShapeCasts S64x64
  concatenates_S64x64_S64x64_S64x128_d1 : Shape.Concatenates [S64x64, S64x64] S64x128 1
  bitsLt_bf16_f32 : FTy.bits .bf16 < FTy.bits .f32
  slices_S3x64x64_S1x64x64_1_0_0 : S3x64x64.Slices ![1, 0, 0] S1x64x64
  bcast_S_S64x64 : S_.BroadcastsInDim S64x64 (![] : Fin 0 → Fin S64x64.rank)
  concatenates_S64x128_S64x128_S128x128_d0 : Shape.Concatenates [S64x128, S64x128] S128x128 0
  slices_S3x64x64_S1x64x64_2_0_0 : S3x64x64.Slices ![2, 0, 0] S1x64x64
  slices_S3x64_S1x64_0_0 : S3x64.Slices ![0, 0] S1x64
  shapeCasts_S1x64_S64 : S1x64.ShapeCasts S64
  concatenates_S64_S64_S128_d0 : Shape.Concatenates [S64, S64] S128 0
  slices_S3x64_S1x64_1_0 : S3x64.Slices ![1, 0] S1x64
  slices_S3x64_S1x64_2_0 : S3x64.Slices ![2, 0] S1x64
  inb_S8192x128_S8192x128_0_0 : ∀ a, (![0, 0] : Fin 2 → Nat) a + S8192x128.size a ≤ S8192x128.size a
  h_S8192x128 : 0 < S8192x128.numel
  slices_S8192x128_o0_0_S8192x64 : S8192x128.Slices ![0, 0] S8192x64
  slices_S8192x128_o0_64_S8192x64 : S8192x128.Slices ![0, 64] S8192x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S8192x64_S8192x64_S8192x128_d1 : Shape.Concatenates [S8192x64, S8192x64] S8192x128 1
  reduces_S8192x64_S8192 : S8192x64.Reduces [1] S8192
  inb_S8192_S8192_0 : ∀ a, (![0] : Fin 1 → Nat) a + S8192.size a ≤ S8192.size a
  h_S8192 : 0 < S8192.numel
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x128.size a ≤ S524288x128.size a
  hwx0_9 : ∀ i : grid0.Coords, EltTy.bits .f32 = 32 ∨ (Rect.block (s := S524288x128) S8192x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8192.size a ≤ S524288.size a
  hwx0_10 : ∀ i : grid0.Coords, EltTy.bits .f32 = 32 ∨ (Rect.block (s := S524288) S8192.size (cc0_transform_10 i) (hinb0_10 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v50) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v51) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v52_0) S8192x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v52_1) S8192.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S524288x128 : Shape := ⟨2, ![524288, 128]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S524288x64 : Shape := ⟨2, ![524288, 64]⟩
abbrev S1x64x64 : Shape := ⟨3, ![1, 64, 64]⟩
abbrev S1x64 : Shape := ⟨2, ![1, 64]⟩
abbrev S_ : Shape := ⟨0, ![]⟩
abbrev S524288 : Shape := ⟨1, ![524288]⟩

abbrev nBuf : Space → Nat
  | .hbm => 107
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S3x64x64, .f32⟩
  | .hbm, ⟨2, _⟩ => ⟨S3x64, .f32⟩
  | .hbm, ⟨3, _⟩ => ⟨S64x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S64x64, .f32⟩
  | .hbm, ⟨8, _⟩ => ⟨S64, .f32⟩
  | .hbm, ⟨9, _⟩ => ⟨S524288x64, .f32⟩
  | .hbm, ⟨10, _⟩ => ⟨S524288x64, .f32⟩
  | .hbm, ⟨11, _⟩ => ⟨S1x64x64, .f32⟩
  | .hbm, ⟨12, _⟩ => ⟨S64x64, .f32⟩
  | .hbm, ⟨13, _⟩ => ⟨S64x64, .f32⟩
  | .hbm, ⟨14, _⟩ => ⟨S524288x64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S524288x64, .f32⟩
  | .hbm, ⟨19, _⟩ => ⟨S524288x64, .f32⟩
  | .hbm, ⟨20, _⟩ => ⟨S_, .f32⟩
  | .hbm, ⟨21, _⟩ => ⟨S524288x64, .f32⟩
  | .hbm, ⟨22, _⟩ => ⟨S524288x64, .f32⟩
  | .hbm, ⟨23, _⟩ => ⟨S1x64x64, .f32⟩
  | .hbm, ⟨24, _⟩ => ⟨S64x64, .f32⟩
  | .hbm, ⟨25, _⟩ => ⟨S64x64, .f32⟩
  | .hbm, ⟨26, _⟩ => ⟨S524288x64, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S524288x64, .f32⟩
  | .hbm, ⟨31, _⟩ => ⟨S524288x64, .f32⟩
  | .hbm, ⟨32, _⟩ => ⟨S_, .f32⟩
  | .hbm, ⟨33, _⟩ => ⟨S524288x64, .f32⟩
  | .hbm, ⟨34, _⟩ => ⟨S524288x64, .f32⟩
  | .hbm, ⟨35, _⟩ => ⟨S1x64x64, .f32⟩
  | .hbm, ⟨36, _⟩ => ⟨S64x64, .f32⟩
  | .hbm, ⟨37, _⟩ => ⟨S64x64, .f32⟩
  | .hbm, ⟨38, _⟩ => ⟨S524288x64, .f32⟩
  | .hbm, ⟨39, _⟩ => ⟨S1x64, .f32⟩
  | .hbm, ⟨40, _⟩ => ⟨S64, .f32⟩
  | .hbm, ⟨41, _⟩ => ⟨S1x64, .f32⟩
  | .hbm, ⟨42, _⟩ => ⟨S524288x64, .f32⟩
  | .hbm, ⟨43, _⟩ => ⟨S524288x64, .f32⟩
  | .hbm, ⟨44, _⟩ => ⟨S_, .f32⟩
  | .hbm, ⟨45, _⟩ => ⟨S524288x64, .f32⟩
  | .hbm, ⟨46, _⟩ => ⟨S524288x64, .f32⟩
  | .hbm, ⟨47, _⟩ => ⟨S64x64, .f32⟩
  | .hbm, ⟨48, _⟩ => ⟨S524288x64, .f32⟩
  | .hbm, ⟨49, _⟩ => ⟨S1x64, .f32⟩
  | .hbm, ⟨50, _⟩ => ⟨S524288x64, .f32⟩
  | .hbm, ⟨51, _⟩ => ⟨S524288x64, .f32⟩
  | .hbm, ⟨52, _⟩ => ⟨S1x64x64, .f32⟩
  | .hbm, ⟨53, _⟩ => ⟨S64x64, .f32⟩
  | .hbm, ⟨54, _⟩ => ⟨S64x64, .f32⟩
  | .hbm, ⟨55, _⟩ => ⟨S524288x64, .f32⟩
  | .hbm, ⟨56, _⟩ => ⟨S1x64, .f32⟩
  | .hbm, ⟨57, _⟩ => ⟨S64, .f32⟩
  | .hbm, ⟨58, _⟩ => ⟨S1x64, .f32⟩
  | .hbm, ⟨59, _⟩ => ⟨S524288x64, .f32⟩
  | .hbm, ⟨60, _⟩ => ⟨S524288x64, .f32⟩
  | .hbm, ⟨61, _⟩ => ⟨S_, .f32⟩
  | .hbm, ⟨62, _⟩ => ⟨S524288x64, .f32⟩
  | .hbm, ⟨63, _⟩ => ⟨S524288x64, .f32⟩
  | .hbm, ⟨64, _⟩ => ⟨S1x64x64, .f32⟩
  | .hbm, ⟨65, _⟩ => ⟨S64x64, .f32⟩
  | .hbm, ⟨66, _⟩ => ⟨S64x64, .f32⟩
  | .hbm, ⟨67, _⟩ => ⟨S524288x64, .f32⟩
  | .hbm, ⟨68, _⟩ => ⟨S1x64, .f32⟩
  | .hbm, ⟨69, _⟩ => ⟨S64, .f32⟩
  | .hbm, ⟨70, _⟩ => ⟨S1x64, .f32⟩
  | .hbm, ⟨71, _⟩ => ⟨S524288x64, .f32⟩
  | .hbm, ⟨72, _⟩ => ⟨S524288x64, .f32⟩
  | .hbm, ⟨73, _⟩ => ⟨S_, .f32⟩
  | .hbm, ⟨74, _⟩ => ⟨S524288x64, .f32⟩
  | .hbm, ⟨75, _⟩ => ⟨S524288x64, .f32⟩
  | .hbm, ⟨76, _⟩ => ⟨S1x64x64, .f32⟩
  | .hbm, ⟨77, _⟩ => ⟨S64x64, .f32⟩
  | .hbm, ⟨78, _⟩ => ⟨S64x64, .f32⟩
  | .hbm, ⟨79, _⟩ => ⟨S524288x64, .f32⟩
  | .hbm, ⟨80, _⟩ => ⟨S1x64, .f32⟩
  | .hbm, ⟨81, _⟩ => ⟨S64, .f32⟩
  | .hbm, ⟨82, _⟩ => ⟨S1x64, .f32⟩
  | .hbm, ⟨83, _⟩ => ⟨S524288x64, .f32⟩
  | .hbm, ⟨84, _⟩ => ⟨S524288x64, .f32⟩
  | .hbm, ⟨85, _⟩ => ⟨S_, .f32⟩
  | .hbm, ⟨86, _⟩ => ⟨S524288x64, .f32⟩
  | .hbm, ⟨87, _⟩ => ⟨S524288x64, .f32⟩
  | .hbm, ⟨88, _⟩ => ⟨S64x64, .f32⟩
  | .hbm, ⟨89, _⟩ => ⟨S524288x64, .f32⟩
  | .hbm, ⟨90, _⟩ => ⟨S1x64, .f32⟩
  | .hbm, ⟨91, _⟩ => ⟨S524288x64, .f32⟩
  | .hbm, ⟨92, _⟩ => ⟨S524288x64, .f32⟩
  | .hbm, ⟨93, _⟩ => ⟨S_, .i32⟩
  | .hbm, ⟨94, _⟩ => ⟨S_, .i32⟩
  | .hbm, ⟨95, _⟩ => ⟨S_, .f32⟩
  | .hbm, ⟨96, _⟩ => ⟨S524288x64, .f32⟩
  | .hbm, ⟨97, _⟩ => ⟨S524288x64, .f32⟩
  | .hbm, ⟨98, _⟩ => ⟨S_, .f32⟩
  | .hbm, ⟨99, _⟩ => ⟨S524288x64, .f32⟩
  | .hbm, ⟨100, _⟩ => ⟨S524288x64, .f32⟩
  | .hbm, ⟨101, _⟩ => ⟨S524288x64, .f32⟩
  | .hbm, ⟨102, _⟩ => ⟨S524288x64, .f32⟩
  | .hbm, ⟨103, _⟩ => ⟨S524288x64, .f32⟩
  | .hbm, ⟨104, _⟩ => ⟨S524288x128, .f32⟩
  | .hbm, ⟨105, _⟩ => ⟨S_, .f32⟩
  | .hbm, ⟨106, _⟩ => ⟨S524288, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_cst : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call2_cst : Ref sig .tc := ⟨.hbm, 44, rfl⟩
abbrev main_call2_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call3_cst : Ref sig .tc := ⟨.hbm, 61, rfl⟩
abbrev main_call3_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_call4_cst : Ref sig .tc := ⟨.hbm, 73, rfl⟩
abbrev main_call4_v0 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call5_cst : Ref sig .tc := ⟨.hbm, 85, rfl⟩
abbrev main_call5_v0 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c : Ref sig .tc := ⟨.hbm, 93, rfl⟩
abbrev main_c_0 : Ref sig .tc := ⟨.hbm, 94, rfl⟩
abbrev main_call6_v0 : Ref sig .tc := ⟨.hbm, 95, rfl⟩
abbrev main_call6_v1 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst : Ref sig .tc := ⟨.hbm, 105, rfl⟩
abbrev main_v77 : Ref sig .tc := ⟨.hbm, 106, rfl⟩

abbrev nD : Nat := 1
abbrev τ : Topo := Topo.v7x

variable {F : FTy → Type} [FloatOps F]

class Facts₀ : Prop where
  slices_S524288x128_S524288x64_0_0 : S524288x128.Slices ![0, 0] S524288x64
  slices_S524288x128_S524288x64_0_64 : S524288x128.Slices ![0, 64] S524288x64
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S524288x64_S524288x64_S524288x128_d1 : Shape.Concatenates [S524288x64, S524288x64] S524288x128 1
  reducesTo_S524288x64_S524288_d1 : S524288x64.ReducesTo [1] S524288
  h_S_ : 0 < S_.numel
  dot_S524288x64_S64x64_S524288x64_1_0_0_1_n_n_wf : DotDims.WF S524288x64 S64x64 S524288x64 [1] [0] [0] [1] [] []

variable [Facts₀]

def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf

class Facts : Prop extends Facts₀ where

variable [Facts]
-- ==== Proof.KMatmul.lean ====
/-
  The kernel's two matrix products read at an output index, on the extended reals: with a zero accumulator the
  entry in row `p` and column `j` is the sum over the contracted index `k` of `l[p, k] · r[k, j]` — 64 terms for the
  first layer (a 64-wide row against a 64 × 128 weight matrix), 128 terms for the three fused layers.
-/
import proofs.«161588_j34583076667869_2_alg».proof.Proof.Gen.KernelIdeal.Frame
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The 64-term product: rows of 64 against a 64 × 128 matrix -/

theorem lhs64_0 (i : S8192x128.Idx) (q : dot_S8192x64_S64x128_S8192x128_1_0_0_1_n_n.contr.Idx) :
    (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl

theorem rhs64_1 (i : S8192x128.Idx) (q : dot_S8192x64_S64x128_S8192x128_1_0_0_1_n_n.contr.Idx) :
    (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- Entry `(p, j)` of the first layer's product is `∑ k < 64, l[p, k] · r[k, j]`. -/
theorem matmul64_apply (l : FVec Ideal S8192x64 .bf16) (r : FVec Ideal S64x128 .bf16) (p : Fin 8192) (j : Fin 128) :
    matmul dot_S8192x64_S64x128_S8192x128_1_0_0_1_n_n none l r (constant (F := Ideal) S8192x128 .f32 0x00000000#32) (ix2 p j)
      = ∑ k : Fin 64, l (ix2 p k) * r (ix2 k j) := by
  simp only [matmul]
  rw [Ideal.matmul_constant_zero_apply, ← Equiv.sum_comp (ValueIdx.contrEquiv1 dot_S8192x64_S64x128_S8192x128_1_0_0_1_n_n 64 rfl rfl).symm]
  refine Finset.sum_congr rfl fun k _ => ?_
  have hk := ValueIdx.contrEquiv1_symm_val dot_S8192x64_S64x128_S8192x128_1_0_0_1_n_n 64 rfl rfl k
  have el : dot_S8192x64_S64x128_S8192x128_1_0_0_1_n_n.lhsIdx (ix2 p j) ((ValueIdx.contrEquiv1 dot_S8192x64_S64x128_S8192x128_1_0_0_1_n_n 64 rfl rfl).symm k) = ix2 p k := funext fun a => Fin.ext (by
    match a with
    | ⟨0, _⟩ => exact lhs64_0 _ _
    | ⟨1, _⟩ => exact (dot_S8192x64_S64x128_S8192x128_1_0_0_1_n_n.lhsIdx_val_of_single rfl _ _).trans hk)
  have er : dot_S8192x64_S64x128_S8192x128_1_0_0_1_n_n.rhsIdx (ix2 p j) ((ValueIdx.contrEquiv1 dot_S8192x64_S64x128_S8192x128_1_0_0_1_n_n 64 rfl rfl).symm k) = ix2 k j := funext fun a => Fin.ext (by
    match a with
    | ⟨0, _⟩ => exact (dot_S8192x64_S64x128_S8192x128_1_0_0_1_n_n.rhsIdx_val_of_single rfl _ _).trans hk
    | ⟨1, _⟩ => exact rhs64_1 _ _)
  rw [el, er]

/-! ## The 128-term product: rows of 128 against a 128 × 128 matrix -/

theorem lhs128_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl

theorem rhs128_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- Entry `(p, j)` of a fused layer's product is `∑ k < 128, l[p, k] · r[k, j]`. -/
theorem matmul128_apply (l : FVec Ideal S8192x128 .bf16) (r : FVec Ideal S128x128 .bf16) (p : Fin 8192) (j : Fin 128) :
    matmul dot_S8192x128_S128x128_S8192x128_1_0_0_1_n_n none l r (constant (F := Ideal) S8192x128 .f32 0x00000000#32) (ix2 p j)
      = ∑ k : Fin 128, l (ix2 p k) * r (ix2 k j) := by
  simp only [matmul]
  rw [Ideal.matmul_constant_zero_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 p j) ((ValueIdx.contrEquiv1 dot_S8192x128_S128x128_S8192x128_1_0_0_1_n_n 128 rfl rfl).symm k) = ix2 p k := funext fun a => Fin.ext (by
    match a with
    | ⟨0, _⟩ => exact lhs128_0 _ _
    | ⟨1, _⟩ => exact (dot_S8192x128_S128x128_S8192x128_1_0_0_1_n_n.lhsIdx_val_of_single rfl _ _).trans hk)
  have er : dot_S8192x128_S128x128_S8192x128_1_0_0_1_n_n.rhsIdx (ix2 p j) ((ValueIdx.contrEquiv1 dot_S8192x128_S128x128_S8192x128_1_0_0_1_n_n 128 rfl rfl).symm k) = ix2 k j := funext fun a => Fin.ext (by
    match a with
    | ⟨0, _⟩ => exact (dot_S8192x128_S128x128_S8192x128_1_0_0_1_n_n.rhsIdx_val_of_single rfl _ _).trans hk
    | ⟨1, _⟩ => exact rhs128_1 _ _)
  rw [el, er]

end Cert.KernelIdeal.Body

end
-- ==== Proof.Spec.lean ====
/-
  The coupling layer as one function of the argument arrays, index by index, on the extended reals.

  A row `x` of 128 features is split into its first 64 entries (the masked half, passed through unchanged and fed
  to two multilayer perceptrons) and its last 64 (the transformed half). Each perceptron has three hidden layers
  `h ↦ max (W h + b) 0` of width 64 and an affine output layer; the "cond" one gives the shift, the "scale" one
  the logarithm of the scale. The transformed half becomes `x · exp (clip (log_scale, -5, 3)) + shift`, and the
  second result is the sum of the unclipped `log_scale` over the 64 outputs.

  Also here: a sum over 128 indices is the sum over its lower 64 plus the sum over its upper 64, which is what
  lets a 128-wide layer with a block-diagonal weight matrix be read as two independent 64-wide layers.
-/
import Idealize.ShloMosaic.PureOps.Ideal
import Idealize.ShloMosaic.PureOps.Ideal.Laws
import Idealize.ShloMosaic.Lib.ValueIdx

noncomputable section

namespace Coupling

open Idealize.ShloMosaic Idealize.ShloMosaic.ValueIdx

/-- The three constants of the layer, each kept as the float word both programs spell: `0`, `-5`, `3`. -/
abbrev Z : EReal := Ideal.ofBits .f32 0x00000000#32
abbrev Lo : EReal := Ideal.ofBits .f32 0xC0A00000#32
abbrev Hi : EReal := Ideal.ofBits .f32 0x40400000#32

theorem Z_eq : Z = 0 := Ideal.ofBits_zero_f32

/-- Feature `k` of the lower half of a 128-wide row, and of the upper half. -/
abbrev lo (k : Fin 64) : Fin 128 := ⟨k.val, by have := k.isLt; omega⟩
abbrev up (k : Fin 64) : Fin 128 := ⟨64 + k.val, by have := k.isLt; omega⟩

/-- Every column of a 128-wide row is in the lower half or in the upper half. -/
theorem lo_or_up (j : Fin 128) : (∃ b : Fin 64, j = lo b) ∨ (∃ b : Fin 64, j = up b) := by
  by_cases h : j.val < 64
  · exact Or.inl ⟨⟨j.val, h⟩, Fin.ext rfl⟩
  · exact Or.inr ⟨⟨j.val - 64, by have := j.isLt; omega⟩, Fin.ext (by show j.val = 64 + (j.val - 64); omega)⟩

/-- A sum over the 128 columns is the sum over the lower half plus the sum over the upper half. -/
theorem sum_halves (f : Fin 128 → EReal) : ∑ k : Fin 128, f k = ∑ k : Fin 64, f (lo k) + ∑ k : Fin 64, f (up k) := by
  have h := Fin.sum_univ_add (M := EReal) (a := 64) (b := 64) f
  refine h.trans ?_
  congr 1

/-- When every upper-half term is a product with the zero constant, only the lower half remains. -/
theorem sum_halves_lower (g : Fin 128 → EReal) (w : Fin 128 → EReal) (hz : ∀ k : Fin 64, w (up k) = Z) :
    ∑ k : Fin 128, g k * w k = ∑ k : Fin 64, g (lo k) * w (lo k) := by
  rw [sum_halves]
  have : ∑ k : Fin 64, g (up k) * w (up k) = 0 :=
    Finset.sum_eq_zero fun k _ => by rw [hz k, Z_eq, mul_zero]
  rw [this, add_zero]

/-- When every lower-half term is a product with the zero constant, only the upper half remains. -/
theorem sum_halves_upper (g : Fin 128 → EReal) (w : Fin 128 → EReal) (hz : ∀ k : Fin 64, w (lo k) = Z) :
    ∑ k : Fin 128, g k * w k = ∑ k : Fin 64, g (up k) * w (up k) := by
  rw [sum_halves]
  have : ∑ k : Fin 64, g (lo k) * w (lo k) = 0 :=
    Finset.sum_eq_zero fun k _ => by rw [hz k, Z_eq, mul_zero]
  rw [this, zero_add]

/-! ## The perceptrons on a row -/

/-- The shapes of the argument arrays. -/
abbrev SX : Shape := ⟨2, ![524288, 128]⟩
abbrev SWh : Shape := ⟨3, ![3, 64, 64]⟩
abbrev Sbh : Shape := ⟨2, ![3, 64]⟩
abbrev SWo : Shape := ⟨2, ![64, 64]⟩
abbrev Sbo : Shape := ⟨1, ![64]⟩
abbrev SL : Shape := ⟨1, ![524288]⟩

/-- Hidden layer `l` on a row `h`: output `j` is `max (∑ k, h k · Wh[l, j, k] + bh[l, j]) 0`. -/
def hidden (Wh : SWh.Idx → EReal) (bh : Sbh.Idx → EReal) (l : Fin 3) (h : Fin 64 → EReal) (j : Fin 64) : EReal :=
  max ((∑ k : Fin 64, h k * Wh (ix3 l j k)) + bh (ix2 l j)) Z

/-- The perceptron on a row `h`: three hidden layers, then output `j` is `∑ k, h₃ k · Wo[j, k] + bo[j]`. -/
def mlp (Wh : SWh.Idx → EReal) (bh : Sbh.Idx → EReal) (Wo : SWo.Idx → EReal) (bo : Sbo.Idx → EReal)
    (h : Fin 64 → EReal) (j : Fin 64) : EReal :=
  (∑ k : Fin 64, hidden Wh bh 2 (hidden Wh bh 1 (hidden Wh bh 0 h)) k * Wo (ix2 j k)) + bo (ix1 j)

/-- The masked half of row `r` of `X`. -/
def masked (X : SX.Idx → EReal) (r : Fin 524288) (k : Fin 64) : EReal := X (ix2 r (lo k))

/-- The transformed entry `b` of a row: `x · exp (min 3 (max (-5) log_scale)) + shift`. -/
def transformed (X : SX.Idx → EReal) (cWh : SWh.Idx → EReal) (cbh : Sbh.Idx → EReal) (cWo : SWo.Idx → EReal) (cbo : Sbo.Idx → EReal)
    (sWh : SWh.Idx → EReal) (sbh : Sbh.Idx → EReal) (sWo : SWo.Idx → EReal) (sbo : Sbo.Idx → EReal)
    (r : Fin 524288) (b : Fin 64) : EReal :=
  X (ix2 r (up b)) * Ideal.exp (min Hi (max Lo (mlp sWh sbh sWo sbo (masked X r) b))) + mlp cWh cbh cWo cbo (masked X r) b

/-- The column of the upper half that a column `j ≥ 64` is (and some column for the others, where it is not used). -/
def half (j : Fin 128) : Fin 64 := ⟨j.val % 64, Nat.mod_lt _ (by decide)⟩

theorem half_up (b : Fin 64) : half (up b) = b := Fin.ext (by show (64 + b.val) % 64 = b.val; have := b.isLt; omega)

/-- The first result: the masked half unchanged, the other half transformed. -/
def outY (X : SX.Idx → EReal) (cWh : SWh.Idx → EReal) (cbh : Sbh.Idx → EReal) (cWo : SWo.Idx → EReal) (cbo : Sbo.Idx → EReal)
    (sWh : SWh.Idx → EReal) (sbh : Sbh.Idx → EReal) (sWo : SWo.Idx → EReal) (sbo : Sbo.Idx → EReal) : SX.Idx → EReal := fun i =>
  if (i 1).val < 64 then X i else transformed X cWh cbh cWo cbo sWh sbh sWo sbo (i 0) (half (i 1))

/-- The second result: the sum over the 64 outputs of the unclipped `log_scale`. -/
def outL (X : SX.Idx → EReal) (sWh : SWh.Idx → EReal) (sbh : Sbh.Idx → EReal) (sWo : SWo.Idx → EReal) (sbo : Sbo.Idx → EReal) : SL.Idx → EReal := fun i =>
  ∑ k : Fin 64, mlp sWh sbh sWo sbo (masked X (i 0)) k

variable (X : SX.Idx → EReal) (cWh : SWh.Idx → EReal) (cbh : Sbh.Idx → EReal) (cWo : SWo.Idx → EReal) (cbo : Sbo.Idx → EReal)
  (sWh : SWh.Idx → EReal) (sbh : Sbh.Idx → EReal) (sWo : SWo.Idx → EReal) (sbo : Sbo.Idx → EReal)

theorem outY_lo (r : Fin 524288) (b : Fin 64) :
    outY X cWh cbh cWo cbo sWh sbh sWo sbo (ix2 r (lo b)) = X (ix2 r (lo b)) := by
  unfold outY
  exact if_pos (by show b.val < 64; exact b.isLt)

theorem outY_up (r : Fin 524288) (b : Fin 64) :
    outY X cWh cbh cWo cbo sWh sbh sWo sbo (ix2 r (up b)) = transformed X cWh cbh cWo cbo sWh sbh sWo sbo r b := by
  unfold outY
  rw [if_neg (by show ¬ (64 + b.val < 64); omega)]
  show transformed X cWh cbh cWo cbo sWh sbh sWo sbo r (half (up b)) = _
  rw [half_up]

/-! ## A 128-wide layer with a block-diagonal weight matrix is two 64-wide layers -/

/-- A 128-wide affine layer on a 128-wide row `a`, weights `W[k, j]` (input `k`, output `j`), bias `β`. -/
def wide (W : Fin 128 → Fin 128 → EReal) (β : Fin 128 → EReal) (a : Fin 128 → EReal) (j : Fin 128) : EReal :=
  (∑ k : Fin 128, a k * W k j) + β j

/-- Lower outputs of a block-diagonal layer see only the lower inputs. -/
theorem wide_lo (W : Fin 128 → Fin 128 → EReal) (β : Fin 128 → EReal) (a : Fin 128 → EReal) (b : Fin 64)
    (hz : ∀ k : Fin 64, W (up k) (lo b) = Z) :
    wide W β a (lo b) = (∑ k : Fin 64, a (lo k) * W (lo k) (lo b)) + β (lo b) := by
  unfold wide
  rw [sum_halves_lower a (fun k => W k (lo b)) hz]

/-- Upper outputs of a block-diagonal layer see only the upper inputs. -/
theorem wide_up (W : Fin 128 → Fin 128 → EReal) (β : Fin 128 → EReal) (a : Fin 128 → EReal) (b : Fin 64)
    (hz : ∀ k : Fin 64, W (lo k) (up b) = Z) :
    wide W β a (up b) = (∑ k : Fin 64, a (up k) * W (up k) (up b)) + β (up b) := by
  unfold wide
  rw [sum_halves_upper a (fun k => W k (up b)) hz]

end Coupling

end
-- ==== Proof.Payload.lean ====
/-
  What the body computes for one row of its block, on the extended reals, from the blocks it loads.

  Row `p` of the loaded block `P0` has a lower half (64 features) that goes through four fused layers: the first
  multiplies it by the 64 × 128 matrix `P1` and adds the bias `P2`; the next two multiply the 128-wide activation
  by `P3`, `P5` and add `P4`, `P6`; each of these three is followed by `max · 0`; the last multiplies by `P7` and adds
  `P8`, with no maximum. The stored row keeps the lower half of `P0` and puts
  `x · exp (min 3 (max (-5) out[64 + b])) + out[b]` in column `64 + b`; the second store holds `∑ b, out[64 + b]`.
-/
import proofs.«161588_j34583076667869_2_alg».proof.Proof.KMatmul
import proofs.«161588_j34583076667869_2_alg».proof.Proof.Spec
import Idealize.ShloMosaic.Lib.ValueLayout

noncomputable section

namespace Cert.KernelIdeal.Body

open Cert.KernelIdeal Cert.KernelIdeal.Gen Idealize.ShloMosaic Idealize.ShloMosaic.ValueIdx
open Coupling (lo up Z Lo Hi wide)

variable (P0 : FVec Ideal S8192x128 .f32) (P1 : FVec Ideal S64x128 .bf16) (P2 : FVec Ideal S128 .f32)
  (P3 : FVec Ideal S128x128 .bf16) (P4 : FVec Ideal S128 .f32) (P5 : FVec Ideal S128x128 .bf16) (P6 : FVec Ideal S128 .f32)
  (P7 : FVec Ideal S128x128 .bf16) (P8 : FVec Ideal S128 .f32)

/-! ## The fused layers on row `p` -/

/-- After the first layer: `max (∑ k < 64, x[p, k] · P1[k, j] + P2[j]) 0`. -/
def act1 (p : Fin 8192) (j : Fin 128) : EReal :=
  max ((∑ k : Fin 64, P0 (ix2 p (lo k)) * P1 (ix2 k j)) + P2 (ix1 j)) Z

/-- After the second layer: `max (∑ k < 128, act1[k] · P3[k, j] + P4[j]) 0`. -/
def act2 (p : Fin 8192) (j : Fin 128) : EReal :=
  max ((∑ k : Fin 128, act1 P0 P1 P2 p k * P3 (ix2 k j)) + P4 (ix1 j)) Z

/-- After the third layer. -/
def act3 (p : Fin 8192) (j : Fin 128) : EReal :=
  max ((∑ k : Fin 128, act2 P0 P1 P2 P3 P4 p k * P5 (ix2 k j)) + P6 (ix1 j)) Z

/-- The output layer: `∑ k < 128, act3[k] · P7[k, j] + P8[j]`. -/
def outRow (p : Fin 8192) (j : Fin 128) : EReal :=
  (∑ k : Fin 128, act3 P0 P1 P2 P3 P4 P5 P6 p k * P7 (ix2 k j)) + P8 (ix1 j)

/-! ## The layout operations of the body at an index -/

/-- A bias vector broadcast over the rows reads, at `(p, j)`, the bias at `j`. -/
theorem bias_apply (v : FVec Ideal S128 .f32) (p : Fin 8192) (j : Fin 128) :
    broadcastTo S8192x128 (shapeCast S1x128 (shapeCast S128 v shapeCasts_S128_S128) shapeCasts_S128_S1x128) broadcasts_S1x128_S8192x128 (ix2 p j)
      = v (ix1 j) :=
  (broadcastTo_1b_ab_apply _ broadcasts_S1x128_S8192x128 p j).trans
    ((shapeCast_a_1a_apply _ shapeCasts_S128_S1x128 (0 : Fin 1) j).trans
      (congrFun (shapeCast_self v shapeCasts_S128_S128) (ix1 j)))

/-- The lower half of the loaded block. -/
theorem lower_apply (p : Fin 8192) (k : Fin 64) :
    extractStridedSlice S8192x64 ![0, 0] P0 slices_S8192x128_o0_0_S8192x64 (ix2 p k) = P0 (ix2 p (lo k)) :=
  slice2_axis1_apply 0 P0 slices_S8192x128_o0_0_S8192x64 p k (lo k) (by show k.val = 0 + k.val; omega)

/-- The upper half of the loaded block. -/
theorem upper_apply (p : Fin 8192) (k : Fin 64) :
    extractStridedSlice S8192x64 ![0, 64] P0 slices_S8192x128_o0_64_S8192x64 (ix2 p k) = P0 (ix2 p (up k)) :=
  slice2_axis1_apply 64 P0 slices_S8192x128_o0_64_S8192x64 p k (up k) (by show 64 + k.val = 64 + k.val; rfl)

/-! ## One layer at an index -/

/-- The first layer, with its maximum, at `(p, j)`. -/
theorem layer1_apply (p : Fin 8192) (j : Fin 128) :
    (truncf .bf16 (maximumf (addf (matmul dot_S8192x64_S64x128_S8192x128_1_0_0_1_n_n none
        (truncf .bf16 (extractStridedSlice S8192x64 ![0, 0] P0 slices_S8192x128_o0_0_S8192x64) bitsLt_bf16_f32)
        (shapeCast S64x128 P1 shapeCasts_S64x128_S64x128) (constant (F := Ideal) S8192x128 .f32 0x00000000#32))
      (broadcastTo S8192x128 (shapeCast S1x128 (shapeCast S128 P2 shapeCasts_S128_S128) shapeCasts_S128_S1x128) broadcasts_S1x128_S8192x128))
      (broadcast S8192x128 (Scalar.ofBits (F := Ideal) .f32 0x00000000#32))) bitsLt_bf16_f32 : FVec Ideal S8192x128 .bf16) (ix2 p j)
      = act1 P0 P1 P2 p j := by
  show max (matmul dot_S8192x64_S64x128_S8192x128_1_0_0_1_n_n none _ _ _ (ix2 p j) + broadcastTo S8192x128 _ _ (ix2 p j)) _ = _
  rw [shapeCast_self, matmul64_apply, bias_apply]
  unfold act1
  refine congrArg (fun s => max (s + P2 (ix1 j)) _) (Finset.sum_congr rfl fun k _ => ?_)
  exact congrArg (· * P1 (ix2 k j)) (lower_apply P0 p k)

/-- A fused 128-wide layer, with its maximum, at `(p, j)`, of any activation `a`. -/
theorem layerK_apply (a : FVec Ideal S8192x128 .bf16) (W : FVec Ideal S128x128 .bf16) (b : FVec Ideal S128 .f32) (p : Fin 8192) (j : Fin 128) :
    (truncf .bf16 (maximumf (addf (matmul dot_S8192x128_S128x128_S8192x128_1_0_0_1_n_n none a
        (shapeCast S128x128 W shapeCasts_S128x128_S128x128) (constant (F := Ideal) S8192x128 .f32 0x00000000#32))
      (broadcastTo S8192x128 (shapeCast S1x128 (shapeCast S128 b shapeCasts_S128_S128) shapeCasts_S128_S1x128) broadcasts_S1x128_S8192x128))
      (broadcast S8192x128 (Scalar.ofBits (F := Ideal) .f32 0x00000000#32))) bitsLt_bf16_f32 : FVec Ideal S8192x128 .bf16) (ix2 p j)
      = max ((∑ k : Fin 128, a (ix2 p k) * W (ix2 k j)) + b (ix1 j)) Z := by
  show max (matmul dot_S8192x128_S128x128_S8192x128_1_0_0_1_n_n none _ _ _ (ix2 p j) + broadcastTo S8192x128 _ _ (ix2 p j)) _ = _
  rw [shapeCast_self, matmul128_apply, bias_apply]
  rfl

/-- The output layer (no maximum) at `(p, j)`, of any activation `a`. -/
theorem layerO_apply (a : FVec Ideal S8192x128 .bf16) (W : FVec Ideal S128x128 .bf16) (b : FVec Ideal S128 .f32) (p : Fin 8192) (j : Fin 128) :
    (addf (matmul dot_S8192x128_S128x128_S8192x128_1_0_0_1_n_n none a
        (shapeCast S128x128 W shapeCasts_S128x128_S128x128) (constant (F := Ideal) S8192x128 .f32 0x00000000#32))
      (broadcastTo S8192x128 (shapeCast S1x128 (shapeCast S128 b shapeCasts_S128_S128) shapeCasts_S128_S1x128) broadcasts_S1x128_S8192x128)) (ix2 p j)
      = (∑ k : Fin 128, a (ix2 p k) * W (ix2 k j)) + b (ix1 j) := by
  show matmul dot_S8192x128_S128x128_S8192x128_1_0_0_1_n_n none _ _ _ (ix2 p j) + broadcastTo S8192x128 _ _ (ix2 p j) = _
  rw [shapeCast_self, matmul128_apply, bias_apply]

/-! ## The payloads at an index -/

/-- The activation after the three hidden layers. -/
theorem pay7_apply (p : Fin 8192) (j : Fin 128) :
    k0_pay7 (F := Ideal) P0 P1 P2 P3 P4 P5 P6 (ix2 p j) = act3 P0 P1 P2 P3 P4 P5 P6 p j := by
  unfold k0_pay7 k0_pay5
  refine (layerK_apply _ P5 P6 p j).trans ?_
  unfold act3
  refine congrArg (fun s => max (s + P6 (ix1 j)) Z) (Finset.sum_congr rfl fun k _ => ?_)
  refine congrArg (· * P5 (ix2 k j)) ?_
  refine (layerK_apply _ P3 P4 p k).trans ?_
  unfold act2
  refine congrArg (fun s => max (s + P4 (ix1 k)) Z) (Finset.sum_congr rfl fun k' _ => ?_)
  exact congrArg (· * P3 (ix2 k' k)) (layer1_apply P0 P1 P2 p k')

/-- The output layer's value. -/
theorem pay1_apply (p : Fin 8192) (j : Fin 128) :
    k0_pay1 (F := Ideal) (k0_pay7 P0 P1 P2 P3 P4 P5 P6) (k0_pay8 P7) (constant S8192x128 .f32 0x00000000#32) P8 (ix2 p j)
      = outRow P0 P1 P2 P3 P4 P5 P6 P7 P8 p j := by
  unfold k0_pay1 k0_pay8
  refine (layerO_apply _ _ P8 p j).trans ?_
  unfold outRow
  refine congrArg (· + P8 (ix1 j)) (Finset.sum_congr rfl fun k _ => ?_)
  exact congrArg (· * P7 (ix2 k j)) (pay7_apply P0 P1 P2 P3 P4 P5 P6 p k)

end Cert.KernelIdeal.Body

end
-- ==== Proof.Outputs.lean ====
/-
  What the body leaves in its two output buffers, entry by entry, on the extended reals.

  The first buffer, at row `p`: column `b < 64` keeps the loaded entry; column `64 + b` holds
  `x[p, 64 + b] · exp (min 3 (max (-5) out[p, 64 + b])) + out[p, b]`, where `out` is the fused output layer of the
  row. The second buffer holds, at `p`, the sum over `b < 64` of `out[p, 64 + b]`.
-/
import proofs.«161588_j34583076667869_2_alg».proof.Proof.Payload
import proofs.«161588_j34583076667869_2_alg».proof.Proof.Gen.KernelIdeal.Value

noncomputable section

namespace Cert.KernelIdeal.Body

open Cert.KernelIdeal Cert.KernelIdeal.Gen Idealize.ShloMosaic Idealize.ShloMosaic.ValueIdx
open Coupling (lo up Z Lo Hi)

theorem hz2 : (![0, 0] : Fin 2 → Nat) = fun _ => 0 := funext fun a => by fin_cases a <;> rfl
theorem hz1 : (![0] : Fin 1 → Nat) = fun _ => 0 := funext fun a => by fin_cases a; rfl

variable (P0 : FVec Ideal S8192x128 .f32) (P1 : FVec Ideal S64x128 .bf16) (P2 : FVec Ideal S128 .f32)
  (P3 : FVec Ideal S128x128 .bf16) (P4 : FVec Ideal S128 .f32) (P5 : FVec Ideal S128x128 .bf16) (P6 : FVec Ideal S128 .f32)
  (P7 : FVec Ideal S128x128 .bf16) (P8 : FVec Ideal S128 .f32)

/-- The output layer's value, with the last weight matrix and the zero accumulator spelt as the stores spell them. -/
theorem pay1_apply' (p : Fin 8192) (j : Fin 128) :
    k0_pay1 (F := Ideal) (k0_pay7 P0 P1 P2 P3 P4 P5 P6) (shapeCast S128x128 P7 shapeCasts_S128x128_S128x128)
        (broadcast S8192x128 (Scalar.ofBits (F := Ideal) .f32 0x00000000#32)) P8 (ix2 p j)
      = outRow P0 P1 P2 P3 P4 P5 P6 P7 P8 p j :=
  pay1_apply P0 P1 P2 P3 P4 P5 P6 P7 P8 p j

/-- The transformed entry from any output-layer value `o`. -/
theorem transformed_apply (o : FVec Ideal S8192x128 .f32) (p : Fin 8192) (b : Fin 64) :
    (addf (mulf (extractStridedSlice S8192x64 ![0, 64] P0 slices_S8192x128_o0_64_S8192x64)
        (exp (minimumf (broadcast S8192x64 (Scalar.ofBits (F := Ideal) .f32 0x40400000#32))
          (maximumf (broadcast S8192x64 (Scalar.ofBits (F := Ideal) .f32 0xC0A00000#32))
            (extractStridedSlice S8192x64 ![0, 64] o slices_S8192x128_o0_64_S8192x64)))))
      (extractStridedSlice S8192x64 ![0, 0] o slices_S8192x128_o0_0_S8192x64) : FVec Ideal S8192x64 .f32) (ix2 p b)
      = P0 (ix2 p (up b)) * Ideal.exp (min Hi (max Lo (o (ix2 p (up b))))) + o (ix2 p (lo b)) := by
  show extractStridedSlice S8192x64 ![0, 64] P0 slices_S8192x128_o0_64_S8192x64 (ix2 p b)
      * Ideal.exp (min Hi (max Lo (extractStridedSlice S8192x64 ![0, 64] o slices_S8192x128_o0_64_S8192x64 (ix2 p b))))
      + extractStridedSlice S8192x64 ![0, 0] o slices_S8192x128_o0_0_S8192x64 (ix2 p b) = _
  rw [upper_apply, upper_apply, lower_apply]

/-- The block the first store leaves, at the lower column `b` of row `p`: the loaded entry. -/
theorem E9_lo (p : Fin 8192) (b : Fin 64) :
    Value.E9 (F := Ideal) P0 P1 P2 P3 P4 P5 P6 P7 P8 (ix2 p (lo b)) = P0 (ix2 p (lo b)) := by
  have hs : Value.csel9_0 (ix2 p (lo b)) = (0 : Fin 2) := Fin.ext (by show b.val / 64 = 0; have := b.isLt; omega)
  have hi : Value.ix9_0 (ix2 p (lo b)) = ix2 p b := funext fun a => Fin.ext (by
    match a with
    | ⟨0, _⟩ => rfl
    | ⟨1, _⟩ => show b.val % 64 = b.val; have := b.isLt; omega)
  show Value.Cat9_0 (F := Ideal) P0 P1 P2 P3 P4 P5 P6 P7 P8 (Value.csel9_0 (ix2 p (lo b))) (Value.ix9_0 (ix2 p (lo b))) = _
  rw [hs, hi]
  exact lower_apply P0 p b

/-- The block the first store leaves, at the upper column `64 + b` of row `p`: the transformed entry. -/
theorem E9_up (p : Fin 8192) (b : Fin 64) :
    Value.E9 (F := Ideal) P0 P1 P2 P3 P4 P5 P6 P7 P8 (ix2 p (up b))
      = P0 (ix2 p (up b)) * Ideal.exp (min Hi (max Lo (outRow P0 P1 P2 P3 P4 P5 P6 P7 P8 p (up b))))
        + outRow P0 P1 P2 P3 P4 P5 P6 P7 P8 p (lo b) := by
  have hs : Value.csel9_0 (ix2 p (up b)) = (1 : Fin 2) := Fin.ext (by show (64 + b.val) / 64 = 1; have := b.isLt; omega)
  have hi : Value.ix9_0 (ix2 p (up b)) = ix2 p b := funext fun a => Fin.ext (by
    match a with
    | ⟨0, _⟩ => rfl
    | ⟨1, _⟩ => show (64 + b.val) % 64 = b.val; have := b.isLt; omega)
  show Value.Cat9_0 (F := Ideal) P0 P1 P2 P3 P4 P5 P6 P7 P8 (Value.csel9_0 (ix2 p (up b))) (Value.ix9_0 (ix2 p (up b))) = _
  rw [hs, hi]
  refine (transformed_apply P0 _ p b).trans ?_
  rw [pay1_apply', pay1_apply']

/-- The first output buffer after the body is that block. -/
theorem out9_eq (y : S8192x128.Idx) :
    out0_9 (F := Ideal) P0 P1 P2 P3 P4 P5 P6 P7 P8 y = Value.E9 (F := Ideal) P0 P1 P2 P3 P4 P5 P6 P7 P8 y := by
  unfold out0_9
  refine (Value.canon9_eq _ _ _ _ _ _ _ _ _ y).trans ?_
  simp only [View.ld_unit_zero (S := S8192x128) hz2, View.ld_unit_zero (S := S64x128) hz2, View.ld_unit_zero (S := S128) hz1,
    View.ld_unit_zero (S := S128x128) hz2]

/-- A row sum over the 64 columns of a block, at row `p`. -/
theorem rowsum_apply (src : FVec Ideal S8192x64 .f32) (hφ : FKind.Formats .f32)
    (hacc : (0x00000000#32 : BitVec (FTy.bits .f32)) = FKind.add.neutral .f32 hφ) (p : Fin 8192) :
    multiReduction .add [1] S8192 src 0x00000000#32 reduces_S8192x64_S8192 hφ hacc (ix1 p) = ∑ k : Fin 64, src (ix2 p k) := by
  refine (Ideal.multiReduction_add_single src 0x00000000#32 reduces_S8192x64_S8192 hφ hacc (ix1 p)).trans ?_
  show ∑ k : Fin 64, src (reduces_S8192x64_S8192.lift (ix1 p) k) = _
  refine Finset.sum_congr rfl fun k _ => congrArg src (funext fun a => Fin.ext ?_)
  match a with
  | ⟨0, _⟩ => rfl
  | ⟨1, _⟩ => rfl

/-- The second output buffer after the body, at row `p`: the sum of the upper half of the output layer. -/
theorem out10_apply (p : Fin 8192) :
    out0_10 (F := Ideal) P0 P1 P2 P3 P4 P5 P6 P7 P8 (ix1 p) = ∑ k : Fin 64, outRow P0 P1 P2 P3 P4 P5 P6 P7 P8 p (up k) := by
  unfold out0_10
  rw [View.canon_unit_zero hz1]
  simp only [View.ld_unit_zero (S := S8192x128) hz2, View.ld_unit_zero (S := S64x128) hz2, View.ld_unit_zero (S := S128) hz1,
    View.ld_unit_zero (S := S128x128) hz2]
  unfold k0_pay4 k0_pay2
  refine (rowsum_apply _ _ _ p).trans ?_
  refine Finset.sum_congr rfl fun k _ => ?_
  rw [upper_apply, pay1_apply]

end Cert.KernelIdeal.Body

end
-- ==== Proof.Fused.lean ====
/-
  The fused perceptron is the two perceptrons side by side.

  The kernel stacks the "cond" and the "scale" perceptron into one chain of 128-wide layers. The first fused weight
  matrix puts the two first-layer matrices (transposed) side by side; every later one is block-diagonal, the cond
  block in the lower-lower corner, the scale block in the upper-upper corner and zeros elsewhere; the biases are
  concatenated. A block-diagonal layer sends the lower half of its input to the lower half of its output and the
  upper half to the upper half — the zero blocks contribute `a · 0 = 0`, which holds for every extended real `a` —
  so by induction over the four layers the lower 64 outputs of the fused chain are the cond perceptron of the row
  and the upper 64 the scale perceptron.
-/
import proofs.«161588_j34583076667869_2_alg».proof.Proof.Spec

noncomputable section

namespace Coupling

open Idealize.ShloMosaic Idealize.ShloMosaic.ValueIdx

abbrev S64x128 : Shape := ⟨2, ![64, 128]⟩
abbrev S128x128 : Shape := ⟨2, ![128, 128]⟩
abbrev S128 : Shape := ⟨1, ![128]⟩

/-- What the fused operands are, in terms of the two perceptrons' parameters (`W[k, j]`: input `k`, output `j`;
    a parameter matrix `Wh[l, j, k]`, `Wo[j, k]`: output `j`, input `k`). -/
structure Fusion (W0 : S64x128.Idx → EReal) (β0 : S128.Idx → EReal) (W1 : S128x128.Idx → EReal) (β1 : S128.Idx → EReal)
    (W2 : S128x128.Idx → EReal) (β2 : S128.Idx → EReal) (W3 : S128x128.Idx → EReal) (β3 : S128.Idx → EReal)
    (cWh : SWh.Idx → EReal) (cbh : Sbh.Idx → EReal) (cWo : SWo.Idx → EReal) (cbo : Sbo.Idx → EReal)
    (sWh : SWh.Idx → EReal) (sbh : Sbh.Idx → EReal) (sWo : SWo.Idx → EReal) (sbo : Sbo.Idx → EReal) : Prop where
  w0_lo : ∀ a b : Fin 64, W0 (ix2 a (lo b)) = cWh (ix3 0 b a)
  w0_up : ∀ a b : Fin 64, W0 (ix2 a (up b)) = sWh (ix3 0 b a)
  b0_lo : ∀ b : Fin 64, β0 (ix1 (lo b)) = cbh (ix2 0 b)
  b0_up : ∀ b : Fin 64, β0 (ix1 (up b)) = sbh (ix2 0 b)
  w1_ll : ∀ a b : Fin 64, W1 (ix2 (lo a) (lo b)) = cWh (ix3 1 b a)
  w1_uu : ∀ a b : Fin 64, W1 (ix2 (up a) (up b)) = sWh (ix3 1 b a)
  w1_lu : ∀ a b : Fin 64, W1 (ix2 (lo a) (up b)) = Z
  w1_ul : ∀ a b : Fin 64, W1 (ix2 (up a) (lo b)) = Z
  b1_lo : ∀ b : Fin 64, β1 (ix1 (lo b)) = cbh (ix2 1 b)
  b1_up : ∀ b : Fin 64, β1 (ix1 (up b)) = sbh (ix2 1 b)
  w2_ll : ∀ a b : Fin 64, W2 (ix2 (lo a) (lo b)) = cWh (ix3 2 b a)
  w2_uu : ∀ a b : Fin 64, W2 (ix2 (up a) (up b)) = sWh (ix3 2 b a)
  w2_lu : ∀ a b : Fin 64, W2 (ix2 (lo a) (up b)) = Z
  w2_ul : ∀ a b : Fin 64, W2 (ix2 (up a) (lo b)) = Z
  b2_lo : ∀ b : Fin 64, β2 (ix1 (lo b)) = cbh (ix2 2 b)
  b2_up : ∀ b : Fin 64, β2 (ix1 (up b)) = sbh (ix2 2 b)
  w3_ll : ∀ a b : Fin 64, W3 (ix2 (lo a) (lo b)) = cWo (ix2 b a)
  w3_uu : ∀ a b : Fin 64, W3 (ix2 (up a) (up b)) = sWo (ix2 b a)
  w3_lu : ∀ a b : Fin 64, W3 (ix2 (lo a) (up b)) = Z
  w3_ul : ∀ a b : Fin 64, W3 (ix2 (up a) (lo b)) = Z
  b3_lo : ∀ b : Fin 64, β3 (ix1 (lo b)) = cbo (ix1 b)
  b3_up : ∀ b : Fin 64, β3 (ix1 (up b)) = sbo (ix1 b)

/-! ## One block-diagonal layer -/

/-- The lower outputs of a block-diagonal hidden layer are the 64-wide hidden layer of the lower inputs. -/
theorem hidden_of_lower (a : Fin 128 → EReal) (W : S128x128.Idx → EReal) (β : S128.Idx → EReal)
    (A : SWh.Idx → EReal) (bh : Sbh.Idx → EReal) (l : Fin 3) (h : Fin 64 → EReal)
    (ha : ∀ k : Fin 64, a (lo k) = h k) (hW : ∀ k b : Fin 64, W (ix2 (lo k) (lo b)) = A (ix3 l b k))
    (hZ : ∀ k b : Fin 64, W (ix2 (up k) (lo b)) = Z) (hβ : ∀ b : Fin 64, β (ix1 (lo b)) = bh (ix2 l b)) (b : Fin 64) :
    max ((∑ k : Fin 128, a k * W (ix2 k (lo b))) + β (ix1 (lo b))) Z = hidden A bh l h b := by
  rw [sum_halves_lower a (fun k => W (ix2 k (lo b))) (fun k => hZ k b), hβ b]
  unfold hidden
  refine congrArg (fun s => max (s + bh (ix2 l b)) Z) (Finset.sum_congr rfl fun k _ => ?_)
  rw [ha k, hW k b]

/-- The upper outputs of a block-diagonal hidden layer are the 64-wide hidden layer of the upper inputs. -/
theorem hidden_of_upper (a : Fin 128 → EReal) (W : S128x128.Idx → EReal) (β : S128.Idx → EReal)
    (A : SWh.Idx → EReal) (bh : Sbh.Idx → EReal) (l : Fin 3) (h : Fin 64 → EReal)
    (ha : ∀ k : Fin 64, a (up k) = h k) (hW : ∀ k b : Fin 64, W (ix2 (up k) (up b)) = A (ix3 l b k))
    (hZ : ∀ k b : Fin 64, W (ix2 (lo k) (up b)) = Z) (hβ : ∀ b : Fin 64, β (ix1 (up b)) = bh (ix2 l b)) (b : Fin 64) :
    max ((∑ k : Fin 128, a k * W (ix2 k (up b))) + β (ix1 (up b))) Z = hidden A bh l h b := by
  rw [sum_halves_upper a (fun k => W (ix2 k (up b))) (fun k => hZ k b), hβ b]
  unfold hidden
  refine congrArg (fun s => max (s + bh (ix2 l b)) Z) (Finset.sum_congr rfl fun k _ => ?_)
  rw [ha k, hW k b]

/-! ## The fused chain on a row -/

section chain

variable (x : Fin 64 → EReal)
  (W0 : S64x128.Idx → EReal) (β0 : S128.Idx → EReal) (W1 : S128x128.Idx → EReal) (β1 : S128.Idx → EReal)
  (W2 : S128x128.Idx → EReal) (β2 : S128.Idx → EReal) (W3 : S128x128.Idx → EReal) (β3 : S128.Idx → EReal)

/-- The fused first layer of a 64-wide row. -/
def fused1 (j : Fin 128) : EReal := max ((∑ k : Fin 64, x k * W0 (ix2 k j)) + β0 (ix1 j)) Z
/-- The fused second layer. -/
def fused2 (j : Fin 128) : EReal := max ((∑ k : Fin 128, fused1 x W0 β0 k * W1 (ix2 k j)) + β1 (ix1 j)) Z
/-- The fused third layer. -/
def fused3 (j : Fin 128) : EReal := max ((∑ k : Fin 128, fused2 x W0 β0 W1 β1 k * W2 (ix2 k j)) + β2 (ix1 j)) Z
/-- The fused output layer. -/
def fusedOut (j : Fin 128) : EReal := (∑ k : Fin 128, fused3 x W0 β0 W1 β1 W2 β2 k * W3 (ix2 k j)) + β3 (ix1 j)

variable {x W0 β0 W1 β1 W2 β2 W3 β3}
variable {cWh : SWh.Idx → EReal} {cbh : Sbh.Idx → EReal} {cWo : SWo.Idx → EReal} {cbo : Sbo.Idx → EReal}
  {sWh : SWh.Idx → EReal} {sbh : Sbh.Idx → EReal} {sWo : SWo.Idx → EReal} {sbo : Sbo.Idx → EReal}

theorem fused1_lo (F : Fusion W0 β0 W1 β1 W2 β2 W3 β3 cWh cbh cWo cbo sWh sbh sWo sbo) (b : Fin 64) :
    fused1 x W0 β0 (lo b) = hidden cWh cbh 0 x b := by
  unfold fused1 hidden
  rw [F.b0_lo b]
  refine congrArg (fun s => max (s + cbh (ix2 0 b)) Z) (Finset.sum_congr rfl fun k _ => ?_)
  rw [F.w0_lo k b]

theorem fused1_up (F : Fusion W0 β0 W1 β1 W2 β2 W3 β3 cWh cbh cWo cbo sWh sbh sWo sbo) (b : Fin 64) :
    fused1 x W0 β0 (up b) = hidden sWh sbh 0 x b := by
  unfold fused1 hidden
  rw [F.b0_up b]
  refine congrArg (fun s => max (s + sbh (ix2 0 b)) Z) (Finset.sum_congr rfl fun k _ => ?_)
  rw [F.w0_up k b]

theorem fused2_lo (F : Fusion W0 β0 W1 β1 W2 β2 W3 β3 cWh cbh cWo cbo sWh sbh sWo sbo) (b : Fin 64) :
    fused2 x W0 β0 W1 β1 (lo b) = hidden cWh cbh 1 (hidden cWh cbh 0 x) b :=
  hidden_of_lower _ W1 β1 cWh cbh 1 _ (fun k => fused1_lo F k) F.w1_ll F.w1_ul F.b1_lo b

theorem fused2_up (F : Fusion W0 β0 W1 β1 W2 β2 W3 β3 cWh cbh cWo cbo sWh sbh sWo sbo) (b : Fin 64) :
    fused2 x W0 β0 W1 β1 (up b) = hidden sWh sbh 1 (hidden sWh sbh 0 x) b :=
  hidden_of_upper _ W1 β1 sWh sbh 1 _ (fun k => fused1_up F k) F.w1_uu F.w1_lu F.b1_up b

theorem fused3_lo (F : Fusion W0 β0 W1 β1 W2 β2 W3 β3 cWh cbh cWo cbo sWh sbh sWo sbo) (b : Fin 64) :
    fused3 x W0 β0 W1 β1 W2 β2 (lo b) = hidden cWh cbh 2 (hidden cWh cbh 1 (hidden cWh cbh 0 x)) b :=
  hidden_of_lower _ W2 β2 cWh cbh 2 _ (fun k => fused2_lo F k) F.w2_ll F.w2_ul F.b2_lo b

theorem fused3_up (F : Fusion W0 β0 W1 β1 W2 β2 W3 β3 cWh cbh cWo cbo sWh sbh sWo sbo) (b : Fin 64) :
    fused3 x W0 β0 W1 β1 W2 β2 (up b) = hidden sWh sbh 2 (hidden sWh sbh 1 (hidden sWh sbh 0 x)) b :=
  hidden_of_upper _ W2 β2 sWh sbh 2 _ (fun k => fused2_up F k) F.w2_uu F.w2_lu F.b2_up b

/-- The lower 64 outputs of the fused chain are the cond perceptron of the row. -/
theorem fusedOut_lo (F : Fusion W0 β0 W1 β1 W2 β2 W3 β3 cWh cbh cWo cbo sWh sbh sWo sbo) (b : Fin 64) :
    fusedOut x W0 β0 W1 β1 W2 β2 W3 β3 (lo b) = mlp cWh cbh cWo cbo x b := by
  unfold fusedOut mlp
  rw [sum_halves_lower _ (fun k => W3 (ix2 k (lo b))) (fun k => F.w3_ul k b), F.b3_lo b]
  refine congrArg (· + cbo (ix1 b)) (Finset.sum_congr rfl fun k _ => ?_)
  rw [fused3_lo F k, F.w3_ll k b]

/-- The upper 64 outputs of the fused chain are the scale perceptron of the row. -/
theorem fusedOut_up (F : Fusion W0 β0 W1 β1 W2 β2 W3 β3 cWh cbh cWo cbo sWh sbh sWo sbo) (b : Fin 64) :
    fusedOut x W0 β0 W1 β1 W2 β2 W3 β3 (up b) = mlp sWh sbh sWo sbo x b := by
  unfold fusedOut mlp
  rw [sum_halves_upper _ (fun k => W3 (ix2 k (up b))) (fun k => F.w3_lu k b), F.b3_up b]
  refine congrArg (· + sbo (ix1 b)) (Finset.sum_congr rfl fun k _ => ?_)
  rw [fused3_up F k, F.w3_uu k b]

end chain

end Coupling

end
-- ==== Proof.Bridge.lean ====
/-
  The body's two output buffers are blocks of the specification.

  Suppose the loaded block `x0` holds rows `R p` of the array `X`, and the eight operand blocks are the fused
  parameters of the two perceptrons. Then the fused output layer of row `p` is, in its lower half, the cond
  perceptron of the masked half of row `R p` of `X`, and in its upper half the scale perceptron; so the first buffer
  at `(p, j)` is the specification's first result at `(R p, j)`, and the second at `p` is its second result at `R p`.
-/
import proofs.«161588_j34583076667869_2_alg».proof.Proof.Outputs
import proofs.«161588_j34583076667869_2_alg».proof.Proof.Fused

noncomputable section

namespace Cert.KernelIdeal.Body

open Cert.KernelIdeal Cert.KernelIdeal.Gen Idealize.ShloMosaic Idealize.ShloMosaic.ValueIdx
open Coupling (lo up Z Lo Hi)

variable (P0 : FVec Ideal S8192x128 .f32) (P1 : FVec Ideal S64x128 .bf16) (P2 : FVec Ideal S128 .f32)
  (P3 : FVec Ideal S128x128 .bf16) (P4 : FVec Ideal S128 .f32) (P5 : FVec Ideal S128x128 .bf16) (P6 : FVec Ideal S128 .f32)
  (P7 : FVec Ideal S128x128 .bf16) (P8 : FVec Ideal S128 .f32)
  (X : Coupling.SX.Idx → EReal) (cWh : Coupling.SWh.Idx → EReal) (cbh : Coupling.Sbh.Idx → EReal)
  (cWo : Coupling.SWo.Idx → EReal) (cbo : Coupling.Sbo.Idx → EReal)
  (sWh : Coupling.SWh.Idx → EReal) (sbh : Coupling.Sbh.Idx → EReal) (sWo : Coupling.SWo.Idx → EReal) (sbo : Coupling.Sbo.Idx → EReal)
  (R : Fin 8192 → Fin 524288)

/-- The body's output layer on row `p` is the fused chain on the lower half of the row. -/
theorem outRow_eq_fused (p : Fin 8192) (j : Fin 128) :
    outRow P0 P1 P2 P3 P4 P5 P6 P7 P8 p j
      = Coupling.fusedOut (fun k => P0 (ix2 p (lo k))) P1 P2 P3 P4 P5 P6 P7 P8 j := rfl

/-- The lower half of block row `p` is the masked half of row `R p` of the array. -/
theorem masked_eq (hx : ∀ (p : Fin 8192) (j : Fin 128), P0 (ix2 p j) = X (ix2 (R p) j)) (p : Fin 8192) :
    (fun k => P0 (ix2 p (lo k))) = Coupling.masked X (R p) :=
  funext fun k => hx p (lo k)

/-- The first output buffer at `(p, j)` is the specification's first result at `(R p, j)`. -/
theorem out9_spec (hx : ∀ (p : Fin 8192) (j : Fin 128), P0 (ix2 p j) = X (ix2 (R p) j))
    (hF : Coupling.Fusion P1 P2 P3 P4 P5 P6 P7 P8 cWh cbh cWo cbo sWh sbh sWo sbo) (y : S8192x128.Idx) :
    out0_9 (F := Ideal) P0 P1 P2 P3 P4 P5 P6 P7 P8 y
      = Coupling.outY X cWh cbh cWo cbo sWh sbh sWo sbo (ix2 (R (y 0)) (y 1)) := by
  obtain ⟨p, j, rfl⟩ : ∃ (p : Fin 8192) (j : Fin 128), y = ix2 p j := ⟨y 0, y 1, eq_ix2 y⟩
  show _ = Coupling.outY X cWh cbh cWo cbo sWh sbh sWo sbo (ix2 (R p) j)
  rw [out9_eq]
  rcases Coupling.lo_or_up j with ⟨b, rfl⟩ | ⟨b, rfl⟩
  · rw [E9_lo, Coupling.outY_lo, hx]
  · rw [E9_up, Coupling.outY_up, outRow_eq_fused, outRow_eq_fused, Coupling.fusedOut_up hF b, Coupling.fusedOut_lo hF b,
      masked_eq P0 X R hx p, hx]
    rfl

/-- The second output buffer at `p` is the specification's second result at `R p`. -/
theorem out10_spec (hx : ∀ (p : Fin 8192) (j : Fin 128), P0 (ix2 p j) = X (ix2 (R p) j))
    (hF : Coupling.Fusion P1 P2 P3 P4 P5 P6 P7 P8 cWh cbh cWo cbo sWh sbh sWo sbo) (y : S8192.Idx) :
    out0_10 (F := Ideal) P0 P1 P2 P3 P4 P5 P6 P7 P8 y
      = Coupling.outL X sWh sbh sWo sbo (ix1 (R (y 0))) := by
  obtain ⟨p, rfl⟩ : ∃ p : Fin 8192, y = ix1 p := ⟨y 0, eq_ix1 y⟩
  show _ = Coupling.outL X sWh sbh sWo sbo (ix1 (R p))
  rw [out10_apply]
  unfold Coupling.outL
  refine Finset.sum_congr rfl fun k _ => ?_
  rw [outRow_eq_fused, Coupling.fusedOut_up hF k, masked_eq P0 X R hx p]

end Cert.KernelIdeal.Body

end
-- ==== Proof.Blocks.lean ====
/-
  From blocks to arrays: after the run each result array is the specification's function of the argument arrays.

  Grid point `t` (of 64) stages rows `8192 t … 8192 t + 8191` of the first argument and the eight operand arrays
  whole, and writes back the same rows of the two results. By the bridge each written block is the block of the
  specification over those rows; the 64 blocks cover all 524288 rows (row `r` lies in block `r / 8192`), so the
  arrays end holding the specification everywhere. Stated under the hypothesis that the operand arrays, as the
  launch finds them, are the fused parameters.
-/
import proofs.«161588_j34583076667869_2_alg».proof.Proof.Bridge
import proofs.«161588_j34583076667869_2_alg».proof.Proof.Gen.KernelIdeal.Value
import Idealize.ShloMosaic.Lib.Pipeline.Value

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The argument arrays and the two results as functions of them -/

abbrev A0 (c : Dev nD) : S524288x128.Idx → EReal := m ((c : Thread nD τ).loc main_arg0)
abbrev A1 (c : Dev nD) : S3x64x64.Idx → EReal := m ((c : Thread nD τ).loc main_arg1)
abbrev A2 (c : Dev nD) : S3x64.Idx → EReal := m ((c : Thread nD τ).loc main_arg2)
abbrev A3 (c : Dev nD) : S64x64.Idx → EReal := m ((c : Thread nD τ).loc main_arg3)
abbrev A4 (c : Dev nD) : S64.Idx → EReal := m ((c : Thread nD τ).loc main_arg4)
abbrev A5 (c : Dev nD) : S3x64x64.Idx → EReal := m ((c : Thread nD τ).loc main_arg5)
abbrev A6 (c : Dev nD) : S3x64.Idx → EReal := m ((c : Thread nD τ).loc main_arg6)
abbrev A7 (c : Dev nD) : S64x64.Idx → EReal := m ((c : Thread nD τ).loc main_arg7)
abbrev A8 (c : Dev nD) : S64.Idx → EReal := m ((c : Thread nD τ).loc main_arg8)

/-- The first result: the coupling layer applied to every row. -/
abbrev resY (c : Dev nD) : S524288x128.Idx → EReal :=
  Coupling.outY (A0 m c) (A1 m c) (A2 m c) (A3 m c) (A4 m c) (A5 m c) (A6 m c) (A7 m c) (A8 m c)

/-- The second result: the sum of the unclipped log-scales of every row. -/
abbrev resL (c : Dev nD) : S524288.Idx → EReal :=
  Coupling.outL (A0 m c) (A5 m c) (A6 m c) (A7 m c) (A8 m c)

/-! ## Where each window's block sits -/

/-- The index maps over the 64 grid points: the first argument and the two results move one block of rows per
    point; every operand window stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0
    ∧ win0_10.index t (0 : Fin 1) = t.val ∧ True :=
  (by decide +kernel : ∀ t : Fin grid0.N, _)

/-- Row `p` of point `t`'s block is row `8192 t + p` of the array. -/
def row (t : Fin cfg0.N) (p : Fin 8192) : Fin 524288 :=
  ⟨t.val * 8192 + p.val, by have := t.isLt; have hN : cfg0.N = 64 := N_0; have := p.isLt; omega⟩

theorem row_val (t : Fin cfg0.N) (p : Fin 8192) : (row t p).val = t.val * 8192 + p.val := rfl

/-- The first argument's block at point `t`, entry by entry. -/
theorem iblk0_apply (c : Dev nD) (t : Fin cfg0.N) (p : Fin 8192) (j : Fin 128) :
    (iblk m c 0 t : Vec Ideal S8192x128 .f32) (ix2 p j) = A0 m c (ix2 (row t p) j) := by
  obtain ⟨e0, e1, -⟩ := idx_facts t
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t (0 : Fin 2) * 8192 + 1 * p.val = t.val * 8192 + p.val; rw [e0]; omega
  | ⟨1, _⟩ => show win0_0.index t (1 : Fin 2) * 128 + 1 * j.val = j.val; rw [e1]; omega

/-! Each operand window's block, at every point, is its whole array. -/

theorem iblk1_eq (c : Dev nD) (t : Fin cfg0.N) : (iblk m c 1 t : Vec Ideal S64x128 .bf16) = V m c main_v9 := by
  obtain ⟨-, -, e0, e1, -⟩ := idx_facts t
  funext y
  unfold iblk
  rw [View.read_apply]
  show V m c main_v9 _ = V m c main_v9 y
  refine congrArg (V m c main_v9) (funext fun a => Fin.ext ?_)
  match a with
  | ⟨0, _⟩ => show win0_1.index t (0 : Fin 2) * 64 + 1 * (y 0).val = (y 0).val; rw [e0]; omega
  | ⟨1, _⟩ => show win0_1.index t (1 : Fin 2) * 128 + 1 * (y 1).val = (y 1).val; rw [e1]; omega

theorem iblk2_eq (c : Dev nD) (t : Fin cfg0.N) : (iblk m c 2 t : Vec Ideal S128 .f32) = V m c main_v40 := by
  obtain ⟨-, -, -, -, e0, -⟩ := idx_facts t
  funext y
  unfold iblk
  rw [View.read_apply]
  show V m c main_v40 _ = V m c main_v40 y
  refine congrArg (V m c main_v40) (funext fun a => Fin.ext ?_)
  match a with
  | ⟨0, _⟩ => show win0_2.index t (0 : Fin 1) * 128 + 1 * (y 0).val = (y 0).val; rw [e0]; omega

theorem iblk3_eq (c : Dev nD) (t : Fin cfg0.N) : (iblk m c 3 t : Vec Ideal S128x128 .bf16) = V m c main_v19 := by
  obtain ⟨-, -, -, -, -, e0, e1, -⟩ := idx_facts t
  funext y
  unfold iblk
  rw [View.read_apply]
  show V m c main_v19 _ = V m c main_v19 y
  refine congrArg (V m c main_v19) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem iblk4_eq (c : Dev nD) (t : Fin cfg0.N) : (iblk m c 4 t : Vec Ideal S128 .f32) = V m c main_v45 := by
  obtain ⟨-, -, -, -, -, -, -, e0, -⟩ := idx_facts t
  funext y
  unfold iblk
  rw [View.read_apply]
  show V m c main_v45 _ = V m c main_v45 y
  refine congrArg (V m c main_v45) (funext fun a => Fin.ext ?_)
  match a with
  | ⟨0, _⟩ => show win0_4.index t (0 : Fin 1) * 128 + 1 * (y 0).val = (y 0).val; rw [e0]; omega

theorem iblk5_eq (c : Dev nD) (t : Fin cfg0.N) : (iblk m c 5 t : Vec Ideal S128x128 .bf16) = V m c main_v29 := by
  obtain ⟨-, -, -, -, -, -, -, -, e0, e1, -⟩ := idx_facts t
  funext y
  unfold iblk
  rw [View.read_apply]
  show V m c main_v29 _ = V m c main_v29 y
  refine congrArg (V m c main_v29) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem iblk6_eq (c : Dev nD) (t : Fin cfg0.N) : (iblk m c 6 t : Vec Ideal S128 .f32) = V m c main_v50 := by
  obtain ⟨-, -, -, -, -, -, -, -, -, -, e0, -⟩ := idx_facts t
  funext y
  unfold iblk
  rw [View.read_apply]
  show V m c main_v50 _ = V m c main_v50 y
  refine congrArg (V m c main_v50) (funext fun a => Fin.ext ?_)
  match a with
  | ⟨0, _⟩ => show win0_6.index t (0 : Fin 1) * 128 + 1 * (y 0).val = (y 0).val; rw [e0]; omega

theorem iblk7_eq (c : Dev nD) (t : Fin cfg0.N) : (iblk m c 7 t : Vec Ideal S128x128 .bf16) = V m c main_v35 := by
  obtain ⟨-, -, -, -, -, -, -, -, -, -, -, e0, e1, -⟩ := idx_facts t
  funext y
  unfold iblk
  rw [View.read_apply]
  show V m c main_v35 _ = V m c main_v35 y
  refine congrArg (V m c main_v35) (funext fun a => Fin.ext ?_)
  match a with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega

theorem iblk8_eq (c : Dev nD) (t : Fin cfg0.N) : (iblk m c 8 t : Vec Ideal S128 .f32) = V m c main_v51 := by
  obtain ⟨-, -, -, -, -, -, -, -, -, -, -, -, -, e0, -⟩ := idx_facts t
  funext y
  unfold iblk
  rw [View.read_apply]
  show V m c main_v51 _ = V m c main_v51 y
  refine congrArg (V m c main_v51) (funext fun a => Fin.ext ?_)
  match a with
  | ⟨0, _⟩ => show win0_8.index t (0 : Fin 1) * 128 + 1 * (y 0).val = (y 0).val; rw [e0]; omega

/-! ## What each point writes back -/

/-- Point `t` writes back block `t` of the first result. -/
theorem flushed9_eq (hF : ∀ c : Dev nD, Coupling.Fusion (V m c main_v9) (V m c main_v40) (V m c main_v19) (V m c main_v45) (V m c main_v29) (V m c main_v50) (V m c main_v35) (V m c main_v51) (A1 m c) (A2 m c) (A3 m c) (A4 m c) (A5 m c) (A6 m c) (A7 m c) (A8 m c)) (c : Dev nD) (t : Fin cfg0.N) :
    (dats m 0 c).flushed 9 t = ((cfg0.win 9).blk t).view.read (Elt Ideal) (resY m c) := by
  obtain ⟨-, -, -, -, -, -, -, -, -, -, -, -, -, -, e0, e1, -⟩ := idx_facts t
  rw [Value.flushed9]
  funext y
  show out0_9 (iblk m c 0 t) (iblk m c 1 t) (iblk m c 2 t) (iblk m c 3 t) (iblk m c 4 t) (iblk m c 5 t) (iblk m c 6 t) (iblk m c 7 t) (iblk m c 8 t) y = resY m c (((cfg0.win 9).blk t).view.emb y)
  have hF' : Coupling.Fusion (iblk m c 1 t) (iblk m c 2 t) (iblk m c 3 t) (iblk m c 4 t) (iblk m c 5 t) (iblk m c 6 t) (iblk m c 7 t) (iblk m c 8 t) (A1 m c) (A2 m c) (A3 m c) (A4 m c) (A5 m c) (A6 m c) (A7 m c) (A8 m c) := by
    rw [iblk1_eq m c t, iblk2_eq m c t, iblk3_eq m c t, iblk4_eq m c t, iblk5_eq m c t, iblk6_eq m c t, iblk7_eq m c t, iblk8_eq m c t]
    exact hF c
  refine (out9_spec (iblk m c 0 t) (iblk m c 1 t) (iblk m c 2 t) (iblk m c 3 t) (iblk m c 4 t) (iblk m c 5 t) (iblk m c 6 t) (iblk m c 7 t) (iblk m c 8 t) (A0 m c) (A1 m c) (A2 m c) (A3 m c) (A4 m c) (A5 m c) (A6 m c) (A7 m c) (A8 m c) (row t) (iblk0_apply m c t) hF' y).trans ?_
  refine congrArg (resY m c) (funext fun a => Fin.ext ?_)
  match a with
  | ⟨0, _⟩ => show t.val * 8192 + (y 0).val = win0_9.index t (0 : Fin 2) * 8192 + 1 * (y 0).val; rw [e0]; omega
  | ⟨1, _⟩ => show (y 1).val = win0_9.index t (1 : Fin 2) * 128 + 1 * (y 1).val; rw [e1]; omega

/-- Point `t` writes back block `t` of the second result. -/
theorem flushed10_eq (hF : ∀ c : Dev nD, Coupling.Fusion (V m c main_v9) (V m c main_v40) (V m c main_v19) (V m c main_v45) (V m c main_v29) (V m c main_v50) (V m c main_v35) (V m c main_v51) (A1 m c) (A2 m c) (A3 m c) (A4 m c) (A5 m c) (A6 m c) (A7 m c) (A8 m c)) (c : Dev nD) (t : Fin cfg0.N) :
    (dats m 0 c).flushed 10 t = ((cfg0.win 10).blk t).view.read (Elt Ideal) (resL m c) := by
  obtain ⟨-, -, -, -, -, -, -, -, -, -, -, -, -, -, -, -, e0, -⟩ := idx_facts t
  rw [Value.flushed10]
  funext y
  show out0_10 (iblk m c 0 t) (iblk m c 1 t) (iblk m c 2 t) (iblk m c 3 t) (iblk m c 4 t) (iblk m c 5 t) (iblk m c 6 t) (iblk m c 7 t) (iblk m c 8 t) y = resL m c (((cfg0.win 10).blk t).view.emb y)
  have hF' : Coupling.Fusion (iblk m c 1 t) (iblk m c 2 t) (iblk m c 3 t) (iblk m c 4 t) (iblk m c 5 t) (iblk m c 6 t) (iblk m c 7 t) (iblk m c 8 t) (A1 m c) (A2 m c) (A3 m c) (A4 m c) (A5 m c) (A6 m c) (A7 m c) (A8 m c) := by
    rw [iblk1_eq m c t, iblk2_eq m c t, iblk3_eq m c t, iblk4_eq m c t, iblk5_eq m c t, iblk6_eq m c t, iblk7_eq m c t, iblk8_eq m c t]
    exact hF c
  refine (out10_spec (iblk m c 0 t) (iblk m c 1 t) (iblk m c 2 t) (iblk m c 3 t) (iblk m c 4 t) (iblk m c 5 t) (iblk m c 6 t) (iblk m c 7 t) (iblk m c 8 t) (A0 m c) (A1 m c) (A2 m c) (A3 m c) (A4 m c) (A5 m c) (A6 m c) (A7 m c) (A8 m c) (row t) (iblk0_apply m c t) hF' y).trans ?_
  refine congrArg (resL m c) (funext fun a => Fin.ext ?_)
  match a with
  | ⟨0, _⟩ => show t.val * 8192 + (y 0).val = win0_10.index t (0 : Fin 1) * 8192 + 1 * (y 0).val; rw [e0]; omega

/-! ## The blocks cover the arrays -/

/-- An index of the first result is in point `t`'s block iff each coordinate is in the block's range. -/
theorem mem_blk9 (t : Fin cfg0.N) (i : S524288x128.Idx) :
    i ∈ ((cfg0.win 9).blk t).view.set ↔ ∀ a : Fin 2, win0_9.index t a * S8192x128.size a ≤ (i a).val ∧ (i a).val < win0_9.index t a * S8192x128.size a + S8192x128.size a := by
  show i ∈ ((View.whole main_v52_0).slice (win0_9.rect t)).set ↔ _
  rw [View.set_slice_whole, Rect.mem_set_unit]
  exact Iff.rfl

/-- The same for the second result. -/
theorem mem_blk10 (t : Fin cfg0.N) (i : S524288.Idx) :
    i ∈ ((cfg0.win 10).blk t).view.set ↔ ∀ a : Fin 1, win0_10.index t a * S8192.size a ≤ (i a).val ∧ (i a).val < win0_10.index t a * S8192.size a + S8192.size a := by
  show i ∈ ((View.whole main_v52_1).slice (win0_10.rect t)).set ↔ _
  rw [View.set_slice_whole, Rect.mem_set_unit]
  exact Iff.rfl

/-- Row `r` of the first result lies in the block of point `r / 8192`. -/
theorem cover9 (i : S524288x128.Idx) : ∃ t : Fin cfg0.N, (cfg0.win 9).flush t = true ∧ i ∈ ((cfg0.win 9).blk t).view.set := by
  have hN : cfg0.N = 64 := N_0
  have hi0 : (i 0).val < 524288 := (i 0).isLt
  have hi1 : (i 1).val < 128 := (i 1).isLt
  obtain ⟨t, ht⟩ : ∃ t : Fin cfg0.N, t.val = (i 0).val / 8192 := ⟨⟨(i 0).val / 8192, by rw [hN]; omega⟩, rfl⟩
  obtain ⟨-, -, -, -, -, -, -, -, -, -, -, -, -, -, e0, e1, -⟩ := idx_facts t
  refine ⟨t, flush0_9 t, ?_⟩
  rw [mem_blk9]
  intro a
  match a with
  | ⟨0, _⟩ => show win0_9.index t (0 : Fin 2) * 8192 ≤ (i 0).val ∧ (i 0).val < win0_9.index t (0 : Fin 2) * 8192 + 8192; rw [e0, ht]; omega
  | ⟨1, _⟩ => show win0_9.index t (1 : Fin 2) * 128 ≤ (i 1).val ∧ (i 1).val < win0_9.index t (1 : Fin 2) * 128 + 128; rw [e1]; omega

/-- Row `r` of the second result lies in the block of point `r / 8192`. -/
theorem cover10 (i : S524288.Idx) : ∃ t : Fin cfg0.N, (cfg0.win 10).flush t = true ∧ i ∈ ((cfg0.win 10).blk t).view.set := by
  have hN : cfg0.N = 64 := N_0
  have hi0 : (i 0).val < 524288 := (i 0).isLt
  obtain ⟨t, ht⟩ : ∃ t : Fin cfg0.N, t.val = (i 0).val / 8192 := ⟨⟨(i 0).val / 8192, by rw [hN]; omega⟩, rfl⟩
  obtain ⟨-, -, -, -, -, -, -, -, -, -, -, -, -, -, -, -, e0, -⟩ := idx_facts t
  refine ⟨t, flush0_10 t, ?_⟩
  rw [mem_blk10]
  intro a
  match a with
  | ⟨0, _⟩ => show win0_10.index t (0 : Fin 1) * 8192 ≤ (i 0).val ∧ (i 0).val < win0_10.index t (0 : Fin 1) * 8192 + 8192; rw [e0, ht]; omega

/-! ## The arrays after the run, and the run -/

theorem final9 (hF : ∀ c : Dev nD, Coupling.Fusion (V m c main_v9) (V m c main_v40) (V m c main_v19) (V m c main_v45) (V m c main_v29) (V m c main_v50) (V m c main_v35) (V m c main_v51) (A1 m c) (A2 m c) (A3 m c) (A4 m c) (A5 m c) (A6 m c) (A7 m c) (A8 m c)) (c : Dev nD) : (dats m 0 c).arrAt 9 cfg0.N = resY m c :=
  (dats m 0 c).arrAt_eq_of_cover 9 (resY m c) (fun t _ => flushed9_eq m hF c t) cover9

theorem final10 (hF : ∀ c : Dev nD, Coupling.Fusion (V m c main_v9) (V m c main_v40) (V m c main_v19) (V m c main_v45) (V m c main_v29) (V m c main_v50) (V m c main_v35) (V m c main_v51) (A1 m c) (A2 m c) (A3 m c) (A4 m c) (A5 m c) (A6 m c) (A7 m c) (A8 m c)) (c : Dev nD) : (dats m 0 c).arrAt 10 cfg0.N = resL m c :=
  (dats m 0 c).arrAt_eq_of_cover 10 (resL m c) (fun t _ => flushed10_eq m hF c t) cover10

/-- The kernel's run, read: the two results are the specification of the arguments, the arguments unchanged. -/
theorem run (hF : ∀ c : Dev nD, Coupling.Fusion (V m c main_v9) (V m c main_v40) (V m c main_v19) (V m c main_v45) (V m c main_v29) (V m c main_v50) (V m c main_v35) (V m c main_v51) (A1 m c) (A2 m c) (A3 m c) (A4 m c) (A5 m c) (A6 m c) (A7 m c) (A8 m c)) :
    θ_run defs (onTc (τ := τ) (main (F := Ideal))) ⟨m, fun _ => 0, ρ⟩ fun r => ∀ c : Dev nD,
      r.2.mem ((c : Thread nD τ).loc main_v52_0) = resY m c
      ∧ r.2.mem ((c : Thread nD τ).loc main_v52_1) = resL m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m hF c), (h c).2.1.trans (final10 m hF c), (h c).2.2⟩)
    (Value.run_blocks m ρ)

end Cert.KernelIdeal.Blocks

end
-- ==== Proof.Weights.lean ====
/-
  The kernel's eight host-built operand arrays, read at an index.

  Before its one launch the program builds, from the parameters of two perceptrons ("cond": arguments 1 to 4,
  "scale": arguments 5 to 8), the operands of one 128-wide chain. A hidden-layer parameter `Wh[l, j, k]` and an
  output parameter `Wo[j, k]` have the output feature `j` before the input feature `k`; every fused weight has the
  input feature as its row and the fused output feature as its column, so each block is a transpose. The first fused
  weight (64x128) puts the two first-layer matrices side by side; the three later ones (128x128) are block-diagonal,
  the cond block on the first 64 rows and columns, the scale block on the last 64, and the zero constant elsewhere;
  each fused bias (128) is the cond bias followed by the scale bias. The change of format to bf16 that ends each
  weight's construction is the identity on extended reals.

  Each array is first named as a term of the argument arrays (`W0_eq` … `bo_eq`), the host operations composed in
  the order the program runs them; then each layout operation is read at an index: a slice shifts a coordinate, a
  reshape keeps the row-major position, a transpose exchanges coordinates, a broadcast of a scalar reads the scalar,
  and a two-operand concatenation reads the first operand below the first extent and the second operand, the first
  extent less, from there on. The last theorem collects the twenty-two equations.
-/
import proofs.«161588_j34583076667869_2_alg».proof.Proof.Gen.KernelIdeal.Frame
import proofs.«161588_j34583076667869_2_alg».proof.Proof.Fused
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Weights

open Cert.KernelIdeal Cert.KernelIdeal.Gen Idealize.ShloMosaic Idealize.ShloMosaic.TcCoe Idealize.SL.Sem
open Idealize.ShloMosaic.ValueIdx

/-! ## Indices of the fused axis

The fused axis has 128 positions: the first 64 belong to the first network, the last 64 to the second. -/

/-- Position `a` of the first half of the fused axis. -/
abbrev lo (a : Fin 64) : Fin 128 := ⟨a.val, by have := a.isLt; omega⟩
/-- Position `a` of the second half of the fused axis. -/
abbrev up (a : Fin 64) : Fin 128 := ⟨64 + a.val, by have := a.isLt; omega⟩

/-! ## Two-operand concatenations read at an index -/

section Generic
variable {α : Type}

/-- Two 64x64 blocks side by side: a column of the first half reads the left block. -/
theorem cat1_lo (h : Shape.Concatenates [S64x64, S64x64] S64x128 1) (x y : S64x64.Idx → α) (a b : Fin 64) :
    concatenate S64x128 1 [⟨S64x64, x⟩, ⟨S64x64, y⟩] h (ix2 a (lo b)) = x (ix2 a b) :=
  concatenate_pair_apply_left (t := S64x128) (s₁ := S64x64) (s₂ := S64x64) 1 x y h (ix2 a (lo b)) rfl (ix2 a b)
    (fun d => match d with | ⟨0, _⟩ => rfl | ⟨1, _⟩ => rfl)

/-- Two 64x64 blocks side by side: a column of the second half reads the right block. -/
theorem cat1_up (h : Shape.Concatenates [S64x64, S64x64] S64x128 1) (x y : S64x64.Idx → α) (a b : Fin 64) :
    concatenate S64x128 1 [⟨S64x64, x⟩, ⟨S64x64, y⟩] h (ix2 a (up b)) = y (ix2 a b) :=
  concatenate_pair_apply_right (t := S64x128) (s₁ := S64x64) (s₂ := S64x64) 1 x y h (ix2 a (up b)) rfl rfl (ix2 a b)
    (fun d hd => match d, hd with | ⟨0, _⟩, _ => rfl | ⟨1, _⟩, hd => absurd rfl hd)
    (by show b.val + 64 = 64 + b.val; omega)

/-- Two 64x128 blocks one above the other: a row of the first half reads the upper block. -/
theorem cat0_lo (h : Shape.Concatenates [S64x128, S64x128] S128x128 0) (x y : S64x128.Idx → α) (a : Fin 64) (j : Fin 128) :
    concatenate S128x128 0 [⟨S64x128, x⟩, ⟨S64x128, y⟩] h (ix2 (lo a) j) = x (ix2 a j) :=
  concatenate_pair_apply_left (t := S128x128) (s₁ := S64x128) (s₂ := S64x128) 0 x y h (ix2 (lo a) j) rfl (ix2 a j)
    (fun d => match d with | ⟨0, _⟩ => rfl | ⟨1, _⟩ => rfl)

/-- Two 64x128 blocks one above the other: a row of the second half reads the lower block. -/
theorem cat0_up (h : Shape.Concatenates [S64x128, S64x128] S128x128 0) (x y : S64x128.Idx → α) (a : Fin 64) (j : Fin 128) :
    concatenate S128x128 0 [⟨S64x128, x⟩, ⟨S64x128, y⟩] h (ix2 (up a) j) = y (ix2 a j) :=
  concatenate_pair_apply_right (t := S128x128) (s₁ := S64x128) (s₂ := S64x128) 0 x y h (ix2 (up a) j) rfl rfl (ix2 a j)
    (fun d hd => match d, hd with | ⟨0, _⟩, hd => absurd rfl hd | ⟨1, _⟩, _ => rfl)
    (by show a.val + 64 = 64 + a.val; omega)

/-- Two vectors of 64 joined: a position of the first half reads the first vector. -/
theorem catv_lo (h : Shape.Concatenates [S64, S64] S128 0) (x y : S64.Idx → α) (b : Fin 64) :
    concatenate S128 0 [⟨S64, x⟩, ⟨S64, y⟩] h (ix1 (lo b)) = x (ix1 b) :=
  concatenate_pair_apply_left (t := S128) (s₁ := S64) (s₂ := S64) 0 x y h (ix1 (lo b)) rfl (ix1 b)
    (fun d => match d with | ⟨0, _⟩ => rfl)

/-- Two vectors of 64 joined: a position of the second half reads the second vector. -/
theorem catv_up (h : Shape.Concatenates [S64, S64] S128 0) (x y : S64.Idx → α) (b : Fin 64) :
    concatenate S128 0 [⟨S64, x⟩, ⟨S64, y⟩] h (ix1 (up b)) = y (ix1 b) :=
  concatenate_pair_apply_right (t := S128) (s₁ := S64) (s₂ := S64) 0 x y h (ix1 (up b)) rfl rfl (ix1 b)
    (fun d hd => match d, hd with | ⟨0, _⟩, hd => absurd rfl hd)
    (by show b.val + 64 = 64 + b.val; omega)

/-! ## One layer of a stacked array, and the transposes -/

/-- Layer `l` of a 3x64x64 stack, cut out and flattened to 64x64. -/
theorem layer3 (l : Fin 3) (hs : S3x64x64.Slices ![l.val, 0, 0] S1x64x64) (hc : S1x64x64.ShapeCasts S64x64)
    (x : S3x64x64.Idx → α) (a b : Fin 64) :
    shapeCast S64x64 (extractStridedSlice S1x64x64 ![l.val, 0, 0] x hs) hc (ix2 a b) = x (ix3 l a b) := by
  refine (shapeCast_apply (extractStridedSlice S1x64x64 ![l.val, 0, 0] x hs) hc (ix2 a b) (ix3 (0 : Fin 1) a b) ?_).trans ?_
  · rewrite [Shape.rowMajor_val_three, Shape.rowMajor_val_two]
    show (0 * 64 + a.val) * 64 + b.val = a.val * 64 + b.val
    omega
  · exact extractStridedSlice_apply ![l.val, 0, 0] x hs (ix3 (0 : Fin 1) a b) (ix3 l a b) (fun d => match d with
      | ⟨0, _⟩ => by show l.val = l.val + 0; omega
      | ⟨1, _⟩ => by show a.val = 0 + a.val; omega
      | ⟨2, _⟩ => by show b.val = 0 + b.val; omega)

/-- Row `l` of a 3x64 stack, cut out and flattened to a vector of 64. -/
theorem layer2 (l : Fin 3) (hs : S3x64.Slices ![l.val, 0] S1x64) (hc : S1x64.ShapeCasts S64)
    (x : S3x64.Idx → α) (b : Fin 64) :
    shapeCast S64 (extractStridedSlice S1x64 ![l.val, 0] x hs) hc (ix1 b) = x (ix2 l b) := by
  refine (shapeCast_apply (extractStridedSlice S1x64 ![l.val, 0] x hs) hc (ix1 b) (ix2 (0 : Fin 1) b) ?_).trans ?_
  · rewrite [Shape.rowMajor_val_two, Shape.rowMajor_val_one]
    show 0 * 64 + b.val = b.val
    omega
  · exact extractStridedSlice_apply ![l.val, 0] x hs (ix2 (0 : Fin 1) b) (ix2 l b) (fun d => match d with
      | ⟨0, _⟩ => by show l.val = l.val + 0; omega
      | ⟨1, _⟩ => by show b.val = 0 + b.val; omega)

/-- The transpose of the last two axes of a 3x64x64 stack. -/
theorem tr3 (h : S3x64x64.Transposes [0, 2, 1] S3x64x64) (x : S3x64x64.Idx → α) (l : Fin 3) (a b : Fin 64) :
    transpose S3x64x64 [0, 2, 1] x h (ix3 l a b) = x (ix3 l b a) :=
  transpose_apply [0, 2, 1] x h (ix3 l a b) (ix3 l b a) (fun d => match d with
    | ⟨0, _⟩ => rfl | ⟨1, _⟩ => rfl | ⟨2, _⟩ => rfl)

/-- The transpose of a 64x64 matrix. -/
theorem tr2 (h : S64x64.Transposes [1, 0] S64x64) (x : S64x64.Idx → α) (a b : Fin 64) :
    transpose S64x64 [1, 0] x h (ix2 a b) = x (ix2 b a) :=
  transpose_apply [1, 0] x h (ix2 a b) (ix2 b a) (fun d => match d with
    | ⟨0, _⟩ => rfl | ⟨1, _⟩ => rfl)

/-- A scalar spread over a 64x64 block reads the scalar everywhere. -/
theorem bcast0 (h : S_.BroadcastsInDim S64x64 (![] : Fin 0 → Fin S64x64.rank)) (x : S_.Idx → α) (a b : Fin 64) :
    broadcastInDim S64x64 ![] h x (ix2 a b) = x ix0 :=
  broadcastInDim_apply ![] h x (ix2 a b) ix0 (fun d => d.elim0)

end Generic

/-! ## The fused arrays as terms of the argument arrays -/

/-- The all-zero 64x64 block (the zero kept as its word). -/
def zeros : S64x64.Idx → EReal :=
  broadcastInDim S64x64 ![] Gen.bcast_S_S64x64 (constant (F := Ideal) S_ .f32 0x00000000#32)

/-- Layer `l` of a stack of three 64x64 matrices, transposed: entry `(a, b)` is entry `(l, b, a)` of the stack. -/
def layerT (l : Fin 3) (hs : S3x64x64.Slices ![l.val, 0, 0] S1x64x64) (X : S3x64x64.Idx → EReal) : S64x64.Idx → EReal :=
  shapeCast S64x64 (extractStridedSlice S1x64x64 ![l.val, 0, 0]
    (transpose S3x64x64 [0, 2, 1] X Gen.transposes_S3x64x64_S3x64x64_0_2_1) hs) Gen.shapeCasts_S1x64x64_S64x64

/-- Row `l` of a stack of three vectors of 64. -/
def rowOf (l : Fin 3) (hs : S3x64.Slices ![l.val, 0] S1x64) (X : S3x64.Idx → EReal) : S64.Idx → EReal :=
  shapeCast S64 (extractStridedSlice S1x64 ![l.val, 0] X hs) Gen.shapeCasts_S1x64_S64

/-- The transpose of a 64x64 matrix. -/
def matT (X : S64x64.Idx → EReal) : S64x64.Idx → EReal :=
  transpose S64x64 [1, 0] X Gen.transposes_S64x64_S64x64_1_0

/-- Two 64x64 blocks side by side. -/
def sideBySide (P Q : S64x64.Idx → EReal) : S64x128.Idx → EReal :=
  concatenate S64x128 1 [⟨S64x64, P⟩, ⟨S64x64, Q⟩] Gen.concatenates_S64x64_S64x64_S64x128_d1

/-- The block-diagonal 128x128 matrix of two 64x64 blocks, zero off the diagonal blocks. -/
def blockDiag (P Q : S64x64.Idx → EReal) : S128x128.Idx → EReal :=
  concatenate S128x128 0 [⟨S64x128, sideBySide P zeros⟩, ⟨S64x128, sideBySide zeros Q⟩]
    Gen.concatenates_S64x128_S64x128_S128x128_d0

/-- Two vectors of 64 joined into one of 128. -/
def joined (p q : S64.Idx → EReal) : S128.Idx → EReal :=
  concatenate S128 0 [⟨S64, p⟩, ⟨S64, q⟩] Gen.concatenates_S64_S64_S128_d0

theorem zeros_apply (a b : Fin 64) : zeros (ix2 a b) = Ideal.ofBits .f32 0x00000000#32 :=
  bcast0 Gen.bcast_S_S64x64 (constant (F := Ideal) S_ .f32 0x00000000#32) a b

theorem layerT_apply (l : Fin 3) (hs : S3x64x64.Slices ![l.val, 0, 0] S1x64x64) (X : S3x64x64.Idx → EReal) (a b : Fin 64) :
    layerT l hs X (ix2 a b) = X (ix3 l b a) :=
  (layer3 l hs Gen.shapeCasts_S1x64x64_S64x64 _ a b).trans (tr3 Gen.transposes_S3x64x64_S3x64x64_0_2_1 X l a b)

theorem rowOf_apply (l : Fin 3) (hs : S3x64.Slices ![l.val, 0] S1x64) (X : S3x64.Idx → EReal) (b : Fin 64) :
    rowOf l hs X (ix1 b) = X (ix2 l b) :=
  layer2 l hs Gen.shapeCasts_S1x64_S64 X b

theorem matT_apply (X : S64x64.Idx → EReal) (a b : Fin 64) : matT X (ix2 a b) = X (ix2 b a) :=
  tr2 Gen.transposes_S64x64_S64x64_1_0 X a b

theorem sideBySide_lo (P Q : S64x64.Idx → EReal) (a b : Fin 64) : sideBySide P Q (ix2 a (lo b)) = P (ix2 a b) :=
  cat1_lo Gen.concatenates_S64x64_S64x64_S64x128_d1 P Q a b
theorem sideBySide_up (P Q : S64x64.Idx → EReal) (a b : Fin 64) : sideBySide P Q (ix2 a (up b)) = Q (ix2 a b) :=
  cat1_up Gen.concatenates_S64x64_S64x64_S64x128_d1 P Q a b

theorem blockDiag_ll (P Q : S64x64.Idx → EReal) (a b : Fin 64) : blockDiag P Q (ix2 (lo a) (lo b)) = P (ix2 a b) :=
  (cat0_lo Gen.concatenates_S64x128_S64x128_S128x128_d0 _ _ a (lo b)).trans (sideBySide_lo P zeros a b)
theorem blockDiag_lu (P Q : S64x64.Idx → EReal) (a b : Fin 64) :
    blockDiag P Q (ix2 (lo a) (up b)) = Ideal.ofBits .f32 0x00000000#32 :=
  (cat0_lo Gen.concatenates_S64x128_S64x128_S128x128_d0 _ _ a (up b)).trans
    ((sideBySide_up P zeros a b).trans (zeros_apply a b))
theorem blockDiag_ul (P Q : S64x64.Idx → EReal) (a b : Fin 64) :
    blockDiag P Q (ix2 (up a) (lo b)) = Ideal.ofBits .f32 0x00000000#32 :=
  (cat0_up Gen.concatenates_S64x128_S64x128_S128x128_d0 _ _ a (lo b)).trans
    ((sideBySide_lo zeros Q a b).trans (zeros_apply a b))
theorem blockDiag_uu (P Q : S64x64.Idx → EReal) (a b : Fin 64) : blockDiag P Q (ix2 (up a) (up b)) = Q (ix2 a b) :=
  (cat0_up Gen.concatenates_S64x128_S64x128_S128x128_d0 _ _ a (up b)).trans (sideBySide_up zeros Q a b)

theorem joined_lo (p q : S64.Idx → EReal) (b : Fin 64) : joined p q (ix1 (lo b)) = p (ix1 b) :=
  catv_lo Gen.concatenates_S64_S64_S128_d0 p q b
theorem joined_up (p q : S64.Idx → EReal) (b : Fin 64) : joined p q (ix1 (up b)) = q (ix1 b) :=
  catv_up Gen.concatenates_S64_S64_S128_d0 p q b

/-! ## The eight operand arrays as the launch finds them -/

section Arrays
variable (m : (ℓ : Loc nD τ sig) → Buf (Elt Ideal) ℓ) (c : Dev nD)

/-- The first layer's fused weight: the two first-layer matrices, transposed, side by side. -/
theorem W0_eq : (V m c main_v9 : S64x128.Idx → EReal)
    = sideBySide (layerT 0 Gen.slices_S3x64x64_S1x64x64_0_0_0 (m ((c : Thread nD τ).loc main_arg1) : S3x64x64.Idx → EReal))
        (layerT 0 Gen.slices_S3x64x64_S1x64x64_0_0_0 (m ((c : Thread nD τ).loc main_arg5) : S3x64x64.Idx → EReal)) := by
  dsimp only [Gen.V, Gen.hostOps0]; after_results_simp; rfl

theorem W0_lo (a b : Fin 64) : (V m c main_v9 : S64x128.Idx → EReal) (ix2 a (lo b)) = (m ((c : Thread nD τ).loc main_arg1) : S3x64x64.Idx → EReal) (ix3 0 b a) := by
  rw [W0_eq m c, sideBySide_lo, layerT_apply]
theorem W0_up (a b : Fin 64) : (V m c main_v9 : S64x128.Idx → EReal) (ix2 a (up b)) = (m ((c : Thread nD τ).loc main_arg5) : S3x64x64.Idx → EReal) (ix3 0 b a) := by
  rw [W0_eq m c, sideBySide_up, layerT_apply]

/-- The second layer's fused weight: the block-diagonal matrix of the two second-layer matrices, transposed. -/
theorem W1_eq : (V m c main_v19 : S128x128.Idx → EReal)
    = blockDiag (layerT 1 Gen.slices_S3x64x64_S1x64x64_1_0_0 (m ((c : Thread nD τ).loc main_arg1) : S3x64x64.Idx → EReal))
        (layerT 1 Gen.slices_S3x64x64_S1x64x64_1_0_0 (m ((c : Thread nD τ).loc main_arg5) : S3x64x64.Idx → EReal)) := by
  dsimp only [Gen.V, Gen.hostOps0]; after_results_simp; rfl

theorem W1_ll (a b : Fin 64) : (V m c main_v19 : S128x128.Idx → EReal) (ix2 (lo a) (lo b)) = (m ((c : Thread nD τ).loc main_arg1) : S3x64x64.Idx → EReal) (ix3 1 b a) := by
  rw [W1_eq m c, blockDiag_ll, layerT_apply]
theorem W1_uu (a b : Fin 64) : (V m c main_v19 : S128x128.Idx → EReal) (ix2 (up a) (up b)) = (m ((c : Thread nD τ).loc main_arg5) : S3x64x64.Idx → EReal) (ix3 1 b a) := by
  rw [W1_eq m c, blockDiag_uu, layerT_apply]
theorem W1_lu (a b : Fin 64) : (V m c main_v19 : S128x128.Idx → EReal) (ix2 (lo a) (up b)) = Ideal.ofBits .f32 0x00000000#32 := by
  rw [W1_eq m c, blockDiag_lu]
theorem W1_ul (a b : Fin 64) : (V m c main_v19 : S128x128.Idx → EReal) (ix2 (up a) (lo b)) = Ideal.ofBits .f32 0x00000000#32 := by
  rw [W1_eq m c, blockDiag_ul]

/-- The third layer's fused weight: the block-diagonal matrix of the two third-layer matrices, transposed. -/
theorem W2_eq : (V m c main_v29 : S128x128.Idx → EReal)
    = blockDiag (layerT 2 Gen.slices_S3x64x64_S1x64x64_2_0_0 (m ((c : Thread nD τ).loc main_arg1) : S3x64x64.Idx → EReal))
        (layerT 2 Gen.slices_S3x64x64_S1x64x64_2_0_0 (m ((c : Thread nD τ).loc main_arg5) : S3x64x64.Idx → EReal)) := by
  dsimp only [Gen.V, Gen.hostOps0]; after_results_simp; rfl

theorem W2_ll (a b : Fin 64) : (V m c main_v29 : S128x128.Idx → EReal) (ix2 (lo a) (lo b)) = (m ((c : Thread nD τ).loc main_arg1) : S3x64x64.Idx → EReal) (ix3 2 b a) := by
  rw [W2_eq m c, blockDiag_ll, layerT_apply]
theorem W2_uu (a b : Fin 64) : (V m c main_v29 : S128x128.Idx → EReal) (ix2 (up a) (up b)) = (m ((c : Thread nD τ).loc main_arg5) : S3x64x64.Idx → EReal) (ix3 2 b a) := by
  rw [W2_eq m c, blockDiag_uu, layerT_apply]
theorem W2_lu (a b : Fin 64) : (V m c main_v29 : S128x128.Idx → EReal) (ix2 (lo a) (up b)) = Ideal.ofBits .f32 0x00000000#32 := by
  rw [W2_eq m c, blockDiag_lu]
theorem W2_ul (a b : Fin 64) : (V m c main_v29 : S128x128.Idx → EReal) (ix2 (up a) (lo b)) = Ideal.ofBits .f32 0x00000000#32 := by
  rw [W2_eq m c, blockDiag_ul]

/-- The output layer's fused weight: the block-diagonal matrix of the two output matrices, transposed. -/
theorem Wo_eq : (V m c main_v35 : S128x128.Idx → EReal)
    = blockDiag (matT (m ((c : Thread nD τ).loc main_arg3) : S64x64.Idx → EReal)) (matT (m ((c : Thread nD τ).loc main_arg7) : S64x64.Idx → EReal)) := by
  dsimp only [Gen.V, Gen.hostOps0]; after_results_simp; rfl

theorem Wo_ll (a b : Fin 64) : (V m c main_v35 : S128x128.Idx → EReal) (ix2 (lo a) (lo b)) = (m ((c : Thread nD τ).loc main_arg3) : S64x64.Idx → EReal) (ix2 b a) := by
  rw [Wo_eq m c, blockDiag_ll, matT_apply]
theorem Wo_uu (a b : Fin 64) : (V m c main_v35 : S128x128.Idx → EReal) (ix2 (up a) (up b)) = (m ((c : Thread nD τ).loc main_arg7) : S64x64.Idx → EReal) (ix2 b a) := by
  rw [Wo_eq m c, blockDiag_uu, matT_apply]
theorem Wo_lu (a b : Fin 64) : (V m c main_v35 : S128x128.Idx → EReal) (ix2 (lo a) (up b)) = Ideal.ofBits .f32 0x00000000#32 := by
  rw [Wo_eq m c, blockDiag_lu]
theorem Wo_ul (a b : Fin 64) : (V m c main_v35 : S128x128.Idx → EReal) (ix2 (up a) (lo b)) = Ideal.ofBits .f32 0x00000000#32 := by
  rw [Wo_eq m c, blockDiag_ul]

/-- The first layer's fused bias: the two first-layer biases joined. -/
theorem b0_eq : (V m c main_v40 : S128.Idx → EReal)
    = joined (rowOf 0 Gen.slices_S3x64_S1x64_0_0 (m ((c : Thread nD τ).loc main_arg2) : S3x64.Idx → EReal)) (rowOf 0 Gen.slices_S3x64_S1x64_0_0 (m ((c : Thread nD τ).loc main_arg6) : S3x64.Idx → EReal)) := by
  dsimp only [Gen.V, Gen.hostOps0]; after_results_simp; rfl

theorem b0_lo (b : Fin 64) : (V m c main_v40 : S128.Idx → EReal) (ix1 (lo b)) = (m ((c : Thread nD τ).loc main_arg2) : S3x64.Idx → EReal) (ix2 0 b) := by
  rw [b0_eq m c, joined_lo, rowOf_apply]
theorem b0_up (b : Fin 64) : (V m c main_v40 : S128.Idx → EReal) (ix1 (up b)) = (m ((c : Thread nD τ).loc main_arg6) : S3x64.Idx → EReal) (ix2 0 b) := by
  rw [b0_eq m c, joined_up, rowOf_apply]

/-- The second layer's fused bias: the two second-layer biases joined. -/
theorem b1_eq : (V m c main_v45 : S128.Idx → EReal)
    = joined (rowOf 1 Gen.slices_S3x64_S1x64_1_0 (m ((c : Thread nD τ).loc main_arg2) : S3x64.Idx → EReal)) (rowOf 1 Gen.slices_S3x64_S1x64_1_0 (m ((c : Thread nD τ).loc main_arg6) : S3x64.Idx → EReal)) := by
  dsimp only [Gen.V, Gen.hostOps0]; after_results_simp; rfl

theorem b1_lo (b : Fin 64) : (V m c main_v45 : S128.Idx → EReal) (ix1 (lo b)) = (m ((c : Thread nD τ).loc main_arg2) : S3x64.Idx → EReal) (ix2 1 b) := by
  rw [b1_eq m c, joined_lo, rowOf_apply]
theorem b1_up (b : Fin 64) : (V m c main_v45 : S128.Idx → EReal) (ix1 (up b)) = (m ((c : Thread nD τ).loc main_arg6) : S3x64.Idx → EReal) (ix2 1 b) := by
  rw [b1_eq m c, joined_up, rowOf_apply]

/-- The third layer's fused bias: the two third-layer biases joined. -/
theorem b2_eq : (V m c main_v50 : S128.Idx → EReal)
    = joined (rowOf 2 Gen.slices_S3x64_S1x64_2_0 (m ((c : Thread nD τ).loc main_arg2) : S3x64.Idx → EReal)) (rowOf 2 Gen.slices_S3x64_S1x64_2_0 (m ((c : Thread nD τ).loc main_arg6) : S3x64.Idx → EReal)) := by
  dsimp only [Gen.V, Gen.hostOps0]; after_results_simp; rfl

theorem b2_lo (b : Fin 64) : (V m c main_v50 : S128.Idx → EReal) (ix1 (lo b)) = (m ((c : Thread nD τ).loc main_arg2) : S3x64.Idx → EReal) (ix2 2 b) := by
  rw [b2_eq m c, joined_lo, rowOf_apply]
theorem b2_up (b : Fin 64) : (V m c main_v50 : S128.Idx → EReal) (ix1 (up b)) = (m ((c : Thread nD τ).loc main_arg6) : S3x64.Idx → EReal) (ix2 2 b) := by
  rw [b2_eq m c, joined_up, rowOf_apply]

/-- The output layer's fused bias: the two output biases joined. -/
theorem bo_eq : (V m c main_v51 : S128.Idx → EReal) = joined (m ((c : Thread nD τ).loc main_arg4) : S64.Idx → EReal) (m ((c : Thread nD τ).loc main_arg8) : S64.Idx → EReal) := by
  dsimp only [Gen.V, Gen.hostOps0]; after_results_simp; rfl

theorem bo_lo (b : Fin 64) : (V m c main_v51 : S128.Idx → EReal) (ix1 (lo b)) = (m ((c : Thread nD τ).loc main_arg4) : S64.Idx → EReal) (ix1 b) := by
  rw [bo_eq m c, joined_lo]
theorem bo_up (b : Fin 64) : (V m c main_v51 : S128.Idx → EReal) (ix1 (up b)) = (m ((c : Thread nD τ).loc main_arg8) : S64.Idx → EReal) (ix1 b) := by
  rw [bo_eq m c, joined_up]

end Arrays

/-! ## The twenty-two equations together -/

/-- The operands of the launch are the fusion of the two perceptrons' parameters. -/
theorem fusion (m : (ℓ : Loc nD τ sig) → Buf (Elt Ideal) ℓ) (c : Dev nD) :
    Coupling.Fusion (V m c main_v9) (V m c main_v40) (V m c main_v19) (V m c main_v45) (V m c main_v29) (V m c main_v50) (V m c main_v35) (V m c main_v51)
      (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) :=
  ⟨W0_lo m c, W0_up m c, b0_lo m c, b0_up m c,
   W1_ll m c, W1_uu m c, W1_lu m c, W1_ul m c, b1_lo m c, b1_up m c,
   W2_ll m c, W2_uu m c, W2_lu m c, W2_ul m c, b2_lo m c, b2_up m c,
   Wo_ll m c, Wo_uu m c, Wo_lu m c, Wo_ul m c, bo_lo m c, bo_up m c⟩

end Cert.KernelIdeal.Weights

end
-- ==== Proof.RefSpec.lean ====
/-
  The reference program's two results are the coupling layer of the specification, index by index.

  Each stage of the reference is read at an index with explicit coordinates: a row `r` and a column `j`.
  The slices, reshapes, transposes and broadcasts only move indices around, so each operand of a stage is an
  argument array read at an index built from `r`, `j` and the summation variable; the matrix products are sums
  over the 64 hidden units; the three hidden layers of each perceptron nest one inside the next.
-/
import proofs.«161588_j34583076667869_2_alg».proof.Proof.Gen.ReferenceIdeal.Read
import proofs.«161588_j34583076667869_2_alg».proof.Proof.Spec

noncomputable section

namespace Cert.ReferenceIdeal.RefSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The two halves of a row -/

/-- The masked half: column `k` of the first slice is column `k` of the lower half of the row. -/
theorem v0_read (x0 : (⟨S524288x128, .f32⟩ : BufTy).Contents (Elt Ideal)) (r : Fin 524288) (k : Fin 64) :
    val_main_v0 (F := Ideal) x0 (ix2 r k) = x0 (ix2 r (Coupling.lo k)) := by
  rw [val_main_v0_apply]
  exact congrArg x0 (funext fun a => Fin.ext (by match a with | ⟨0, _⟩ => rfl | ⟨1, _⟩ => rfl))

/-- The other half: column `k` of the second slice is column `k` of the upper half of the row. -/
theorem v1_read (x0 : (⟨S524288x128, .f32⟩ : BufTy).Contents (Elt Ideal)) (r : Fin 524288) (k : Fin 64) :
    val_main_v1 (F := Ideal) x0 (ix2 r k) = x0 (ix2 r (Coupling.up k)) := by
  rw [val_main_v1_apply]
  exact congrArg x0 (funext fun a => Fin.ext (by match a with | ⟨0, _⟩ => rfl | ⟨1, _⟩ => rfl))

/-! ## The shift perceptron -/

/-- The transposed weight matrix of hidden layer 0 of the shift perceptron: entry `(k, j)` is `Wh[0, j, k]`. -/
theorem v4_read (x1 : (⟨S3x64x64, .f32⟩ : BufTy).Contents (Elt Ideal)) (k j : Fin 64) :
    val_main_v4 (F := Ideal) x1 (ix2 k j) = x1 (ix3 (0 : Fin 3) j k) := by
  rw [val_main_v4_apply, val_main_v3_apply, val_main_v2_apply]
  have hj : j.val < 64 := j.isLt
  have hk : k.val < 64 := k.isLt
  exact congrArg x1 (funext fun a => Fin.ext (by
    match a with
    | ⟨0, _⟩ => rfl
    | ⟨1, _⟩ => show (j.val * 64 + k.val) / 64 % 64 = j.val; omega
    | ⟨2, _⟩ => show (j.val * 64 + k.val) % 64 = k.val; omega))

/-- The broadcast bias of hidden layer 0 of the shift perceptron: entry `(r, j)` is `bh[0, j]`. -/
theorem v9_read (x2 : (⟨S3x64, .f32⟩ : BufTy).Contents (Elt Ideal)) (r : Fin 524288) (j : Fin 64) :
    val_main_v9 (F := Ideal) x2 (ix2 r j) = x2 (ix2 (0 : Fin 3) j) := by
  rw [val_main_v9_apply, val_main_v8_apply, val_main_v7_apply, val_main_v6_apply]
  have hj : j.val < 64 := j.isLt
  exact congrArg x2 (funext fun a => Fin.ext (by
    match a with
    | ⟨0, _⟩ => rfl
    | ⟨1, _⟩ => show j.val % 64 = j.val; omega))

/-- The zero the rectifier of hidden layer 0 of the shift perceptron compares with. -/
theorem relu0_read (i : S524288x64.Idx) : val_main_call0_v0 (F := Ideal) i = Coupling.Z := by
  rw [val_main_call0_v0_apply, val_main_call0_cst_apply]
  rfl

/-- Hidden layer 0 of the shift perceptron. -/
theorem v11_eq (x0 : (⟨S524288x128, .f32⟩ : BufTy).Contents (Elt Ideal)) (x1 : (⟨S3x64x64, .f32⟩ : BufTy).Contents (Elt Ideal))
    (x2 : (⟨S3x64, .f32⟩ : BufTy).Contents (Elt Ideal)) (r : Fin 524288) (j : Fin 64) :
    val_main_v11 (F := Ideal) x0 x1 x2 (ix2 r j) = Coupling.hidden x1 x2 0 (Coupling.masked x0 r) j := by
  rw [val_main_v11_apply, val_main_v10_apply, val_main_v5_apply, relu0_read, v9_read]
  have hl : ∀ k : Fin 64, lidx_main_v5 (ix2 r j) k = ix2 r k := fun k =>
    funext fun a => Fin.ext (by match a with | ⟨0, _⟩ => rfl | ⟨1, _⟩ => rfl)
  have hr : ∀ k : Fin 64, ridx_main_v5 (ix2 r j) k = ix2 k j := fun k =>
    funext fun a => Fin.ext (by match a with | ⟨0, _⟩ => rfl | ⟨1, _⟩ => rfl)
  simp only [hl, hr, v0_read, v4_read, Ideal.addf_def, Ideal.maximumf_def]
  rfl

/-- The transposed weight matrix of hidden layer 1 of the shift perceptron: entry `(k, j)` is `Wh[1, j, k]`. -/
theorem v14_read (x1 : (⟨S3x64x64, .f32⟩ : BufTy).Contents (Elt Ideal)) (k j : Fin 64) :
    val_main_v14 (F := Ideal) x1 (ix2 k j) = x1 (ix3 (1 : Fin 3) j k) := by
  rw [val_main_v14_apply, val_main_v13_apply, val_main_v12_apply]
  have hj : j.val < 64 := j.isLt
  have hk : k.val < 64 := k.isLt
  exact congrArg x1 (funext fun a => Fin.ext (by
    match a with
    | ⟨0, _⟩ => rfl
    | ⟨1, _⟩ => show (j.val * 64 + k.val) / 64 % 64 = j.val; omega
    | ⟨2, _⟩ => show (j.val * 64 + k.val) % 64 = k.val; omega))

/-- The broadcast bias of hidden layer 1 of the shift perceptron: entry `(r, j)` is `bh[1, j]`. -/
theorem v19_read (x2 : (⟨S3x64, .f32⟩ : BufTy).Contents (Elt Ideal)) (r : Fin 524288) (j : Fin 64) :
    val_main_v19 (F := Ideal) x2 (ix2 r j) = x2 (ix2 (1 : Fin 3) j) := by
  rw [val_main_v19_apply, val_main_v18_apply, val_main_v17_apply, val_main_v16_apply]
  have hj : j.val < 64 := j.isLt
  exact congrArg x2 (funext fun a => Fin.ext (by
    match a with
    | ⟨0, _⟩ => rfl
    | ⟨1, _⟩ => show j.val % 64 = j.val; omega))

/-- The zero the rectifier of hidden layer 1 of the shift perceptron compares with. -/
theorem relu1_read (i : S524288x64.Idx) : val_main_call1_v0 (F := Ideal) i = Coupling.Z := by
  rw [val_main_call1_v0_apply, val_main_call1_cst_apply]
  rfl

/-- Hidden layer 1 of the shift perceptron, on the layer before it. -/
theorem v21_eq (x0 : (⟨S524288x128, .f32⟩ : BufTy).Contents (Elt Ideal)) (x1 : (⟨S3x64x64, .f32⟩ : BufTy).Contents (Elt Ideal))
    (x2 : (⟨S3x64, .f32⟩ : BufTy).Contents (Elt Ideal)) (r : Fin 524288) (j : Fin 64) :
    val_main_v21 (F := Ideal) x0 x1 x2 (ix2 r j) = Coupling.hidden x1 x2 1 (Coupling.hidden x1 x2 0 (Coupling.masked x0 r)) j := by
  rw [val_main_v21_apply, val_main_v20_apply, val_main_v15_apply, relu1_read, v19_read]
  have hl : ∀ k : Fin 64, lidx_main_v15 (ix2 r j) k = ix2 r k := fun k =>
    funext fun a => Fin.ext (by match a with | ⟨0, _⟩ => rfl | ⟨1, _⟩ => rfl)
  have hr : ∀ k : Fin 64, ridx_main_v15 (ix2 r j) k = ix2 k j := fun k =>
    funext fun a => Fin.ext (by match a with | ⟨0, _⟩ => rfl | ⟨1, _⟩ => rfl)
  simp only [hl, hr, v11_eq, v14_read, Ideal.addf_def, Ideal.maximumf_def]
  rfl

/-- The transposed weight matrix of hidden layer 2 of the shift perceptron: entry `(k, j)` is `Wh[2, j, k]`. -/
theorem v24_read (x1 : (⟨S3x64x64, .f32⟩ : BufTy).Contents (Elt Ideal)) (k j : Fin 64) :
    val_main_v24 (F := Ideal) x1 (ix2 k j) = x1 (ix3 (2 : Fin 3) j k) := by
  rw [val_main_v24_apply, val_main_v23_apply, val_main_v22_apply]
  have hj : j.val < 64 := j.isLt
  have hk : k.val < 64 := k.isLt
  exact congrArg x1 (funext fun a => Fin.ext (by
    match a with
    | ⟨0, _⟩ => rfl
    | ⟨1, _⟩ => show (j.val * 64 + k.val) / 64 % 64 = j.val; omega
    | ⟨2, _⟩ => show (j.val * 64 + k.val) % 64 = k.val; omega))

/-- The broadcast bias of hidden layer 2 of the shift perceptron: entry `(r, j)` is `bh[2, j]`. -/
theorem v29_read (x2 : (⟨S3x64, .f32⟩ : BufTy).Contents (Elt Ideal)) (r : Fin 524288) (j : Fin 64) :
    val_main_v29 (F := Ideal) x2 (ix2 r j) = x2 (ix2 (2 : Fin 3) j) := by
  rw [val_main_v29_apply, val_main_v28_apply, val_main_v27_apply, val_main_v26_apply]
  have hj : j.val < 64 := j.isLt
  exact congrArg x2 (funext fun a => Fin.ext (by
    match a with
    | ⟨0, _⟩ => rfl
    | ⟨1, _⟩ => show j.val % 64 = j.val; omega))

/-- The zero the rectifier of hidden layer 2 of the shift perceptron compares with. -/
theorem relu2_read (i : S524288x64.Idx) : val_main_call2_v0 (F := Ideal) i = Coupling.Z := by
  rw [val_main_call2_v0_apply, val_main_call2_cst_apply]
  rfl

/-- Hidden layer 2 of the shift perceptron, on the layer before it. -/
theorem v31_eq (x0 : (⟨S524288x128, .f32⟩ : BufTy).Contents (Elt Ideal)) (x1 : (⟨S3x64x64, .f32⟩ : BufTy).Contents (Elt Ideal))
    (x2 : (⟨S3x64, .f32⟩ : BufTy).Contents (Elt Ideal)) (r : Fin 524288) (j : Fin 64) :
    val_main_v31 (F := Ideal) x0 x1 x2 (ix2 r j) = Coupling.hidden x1 x2 2 (Coupling.hidden x1 x2 1 (Coupling.hidden x1 x2 0 (Coupling.masked x0 r))) j := by
  rw [val_main_v31_apply, val_main_v30_apply, val_main_v25_apply, relu2_read, v29_read]
  have hl : ∀ k : Fin 64, lidx_main_v25 (ix2 r j) k = ix2 r k := fun k =>
    funext fun a => Fin.ext (by match a with | ⟨0, _⟩ => rfl | ⟨1, _⟩ => rfl)
  have hr : ∀ k : Fin 64, ridx_main_v25 (ix2 r j) k = ix2 k j := fun k =>
    funext fun a => Fin.ext (by match a with | ⟨0, _⟩ => rfl | ⟨1, _⟩ => rfl)
  simp only [hl, hr, v21_eq, v24_read, Ideal.addf_def, Ideal.maximumf_def]
  rfl

/-- The transposed weight matrix of the output layer of the shift perceptron: entry `(k, j)` is `Wo[j, k]`. -/
theorem v32_read (x3 : (⟨S64x64, .f32⟩ : BufTy).Contents (Elt Ideal)) (k j : Fin 64) :
    val_main_v32 (F := Ideal) x3 (ix2 k j) = x3 (ix2 j k) := by
  rw [val_main_v32_apply]
  exact congrArg x3 (funext fun a => Fin.ext (by match a with | ⟨0, _⟩ => rfl | ⟨1, _⟩ => rfl))

/-- The broadcast bias of the output layer of the shift perceptron: entry `(r, j)` is `bo[j]`. -/
theorem v35_read (x4 : (⟨S64, .f32⟩ : BufTy).Contents (Elt Ideal)) (r : Fin 524288) (j : Fin 64) :
    val_main_v35 (F := Ideal) x4 (ix2 r j) = x4 (ix1 j) := by
  rw [val_main_v35_apply, val_main_v34_apply]
  exact congrArg x4 (funext fun a => Fin.ext (by match a with | ⟨0, _⟩ => rfl))

/-- The shift perceptron on the masked half of row `r`. -/
theorem v36_eq (x0 : (⟨S524288x128, .f32⟩ : BufTy).Contents (Elt Ideal)) (x1 : (⟨S3x64x64, .f32⟩ : BufTy).Contents (Elt Ideal))
    (x2 : (⟨S3x64, .f32⟩ : BufTy).Contents (Elt Ideal)) (x3 : (⟨S64x64, .f32⟩ : BufTy).Contents (Elt Ideal)) (x4 : (⟨S64, .f32⟩ : BufTy).Contents (Elt Ideal)) (r : Fin 524288) (j : Fin 64) :
    val_main_v36 (F := Ideal) x0 x1 x2 x3 x4 (ix2 r j) = Coupling.mlp x1 x2 x3 x4 (Coupling.masked x0 r) j := by
  rw [val_main_v36_apply, val_main_v33_apply, v35_read]
  have hl : ∀ k : Fin 64, lidx_main_v33 (ix2 r j) k = ix2 r k := fun k =>
    funext fun a => Fin.ext (by match a with | ⟨0, _⟩ => rfl | ⟨1, _⟩ => rfl)
  have hr : ∀ k : Fin 64, ridx_main_v33 (ix2 r j) k = ix2 k j := fun k =>
    funext fun a => Fin.ext (by match a with | ⟨0, _⟩ => rfl | ⟨1, _⟩ => rfl)
  simp only [hl, hr, v31_eq, v32_read, Ideal.addf_def]
  rfl

/-! ## The scale perceptron -/

/-- The transposed weight matrix of hidden layer 0 of the scale perceptron: entry `(k, j)` is `Wh[0, j, k]`. -/
theorem v39_read (x5 : (⟨S3x64x64, .f32⟩ : BufTy).Contents (Elt Ideal)) (k j : Fin 64) :
    val_main_v39 (F := Ideal) x5 (ix2 k j) = x5 (ix3 (0 : Fin 3) j k) := by
  rw [val_main_v39_apply, val_main_v38_apply, val_main_v37_apply]
  have hj : j.val < 64 := j.isLt
  have hk : k.val < 64 := k.isLt
  exact congrArg x5 (funext fun a => Fin.ext (by
    match a with
    | ⟨0, _⟩ => rfl
    | ⟨1, _⟩ => show (j.val * 64 + k.val) / 64 % 64 = j.val; omega
    | ⟨2, _⟩ => show (j.val * 64 + k.val) % 64 = k.val; omega))

/-- The broadcast bias of hidden layer 0 of the scale perceptron: entry `(r, j)` is `bh[0, j]`. -/
theorem v44_read (x6 : (⟨S3x64, .f32⟩ : BufTy).Contents (Elt Ideal)) (r : Fin 524288) (j : Fin 64) :
    val_main_v44 (F := Ideal) x6 (ix2 r j) = x6 (ix2 (0 : Fin 3) j) := by
  rw [val_main_v44_apply, val_main_v43_apply, val_main_v42_apply, val_main_v41_apply]
  have hj : j.val < 64 := j.isLt
  exact congrArg x6 (funext fun a => Fin.ext (by
    match a with
    | ⟨0, _⟩ => rfl
    | ⟨1, _⟩ => show j.val % 64 = j.val; omega))

/-- The zero the rectifier of hidden layer 0 of the scale perceptron compares with. -/
theorem relu3_read (i : S524288x64.Idx) : val_main_call3_v0 (F := Ideal) i = Coupling.Z := by
  rw [val_main_call3_v0_apply, val_main_call3_cst_apply]
  rfl

/-- Hidden layer 0 of the scale perceptron. -/
theorem v46_eq (x0 : (⟨S524288x128, .f32⟩ : BufTy).Contents (Elt Ideal)) (x5 : (⟨S3x64x64, .f32⟩ : BufTy).Contents (Elt Ideal))
    (x6 : (⟨S3x64, .f32⟩ : BufTy).Contents (Elt Ideal)) (r : Fin 524288) (j : Fin 64) :
    val_main_v46 (F := Ideal) x0 x5 x6 (ix2 r j) = Coupling.hidden x5 x6 0 (Coupling.masked x0 r) j := by
  rw [val_main_v46_apply, val_main_v45_apply, val_main_v40_apply, relu3_read, v44_read]
  have hl : ∀ k : Fin 64, lidx_main_v40 (ix2 r j) k = ix2 r k := fun k =>
    funext fun a => Fin.ext (by match a with | ⟨0, _⟩ => rfl | ⟨1, _⟩ => rfl)
  have hr : ∀ k : Fin 64, ridx_main_v40 (ix2 r j) k = ix2 k j := fun k =>
    funext fun a => Fin.ext (by match a with | ⟨0, _⟩ => rfl | ⟨1, _⟩ => rfl)
  simp only [hl, hr, v0_read, v39_read, Ideal.addf_def, Ideal.maximumf_def]
  rfl

/-- The transposed weight matrix of hidden layer 1 of the scale perceptron: entry `(k, j)` is `Wh[1, j, k]`. -/
theorem v49_read (x5 : (⟨S3x64x64, .f32⟩ : BufTy).Contents (Elt Ideal)) (k j : Fin 64) :
    val_main_v49 (F := Ideal) x5 (ix2 k j) = x5 (ix3 (1 : Fin 3) j k) := by
  rw [val_main_v49_apply, val_main_v48_apply, val_main_v47_apply]
  have hj : j.val < 64 := j.isLt
  have hk : k.val < 64 := k.isLt
  exact congrArg x5 (funext fun a => Fin.ext (by
    match a with
    | ⟨0, _⟩ => rfl
    | ⟨1, _⟩ => show (j.val * 64 + k.val) / 64 % 64 = j.val; omega
    | ⟨2, _⟩ => show (j.val * 64 + k.val) % 64 = k.val; omega))

/-- The broadcast bias of hidden layer 1 of the scale perceptron: entry `(r, j)` is `bh[1, j]`. -/
theorem v54_read (x6 : (⟨S3x64, .f32⟩ : BufTy).Contents (Elt Ideal)) (r : Fin 524288) (j : Fin 64) :
    val_main_v54 (F := Ideal) x6 (ix2 r j) = x6 (ix2 (1 : Fin 3) j) := by
  rw [val_main_v54_apply, val_main_v53_apply, val_main_v52_apply, val_main_v51_apply]
  have hj : j.val < 64 := j.isLt
  exact congrArg x6 (funext fun a => Fin.ext (by
    match a with
    | ⟨0, _⟩ => rfl
    | ⟨1, _⟩ => show j.val % 64 = j.val; omega))

/-- The zero the rectifier of hidden layer 1 of the scale perceptron compares with. -/
theorem relu4_read (i : S524288x64.Idx) : val_main_call4_v0 (F := Ideal) i = Coupling.Z := by
  rw [val_main_call4_v0_apply, val_main_call4_cst_apply]
  rfl

/-- Hidden layer 1 of the scale perceptron, on the layer before it. -/
theorem v56_eq (x0 : (⟨S524288x128, .f32⟩ : BufTy).Contents (Elt Ideal)) (x5 : (⟨S3x64x64, .f32⟩ : BufTy).Contents (Elt Ideal))
    (x6 : (⟨S3x64, .f32⟩ : BufTy).Contents (Elt Ideal)) (r : Fin 524288) (j : Fin 64) :
    val_main_v56 (F := Ideal) x0 x5 x6 (ix2 r j) = Coupling.hidden x5 x6 1 (Coupling.hidden x5 x6 0 (Coupling.masked x0 r)) j := by
  rw [val_main_v56_apply, val_main_v55_apply, val_main_v50_apply, relu4_read, v54_read]
  have hl : ∀ k : Fin 64, lidx_main_v50 (ix2 r j) k = ix2 r k := fun k =>
    funext fun a => Fin.ext (by match a with | ⟨0, _⟩ => rfl | ⟨1, _⟩ => rfl)
  have hr : ∀ k : Fin 64, ridx_main_v50 (ix2 r j) k = ix2 k j := fun k =>
    funext fun a => Fin.ext (by match a with | ⟨0, _⟩ => rfl | ⟨1, _⟩ => rfl)
  simp only [hl, hr, v46_eq, v49_read, Ideal.addf_def, Ideal.maximumf_def]
  rfl

/-- The transposed weight matrix of hidden layer 2 of the scale perceptron: entry `(k, j)` is `Wh[2, j, k]`. -/
theorem v59_read (x5 : (⟨S3x64x64, .f32⟩ : BufTy).Contents (Elt Ideal)) (k j : Fin 64) :
    val_main_v59 (F := Ideal) x5 (ix2 k j) = x5 (ix3 (2 : Fin 3) j k) := by
  rw [val_main_v59_apply, val_main_v58_apply, val_main_v57_apply]
  have hj : j.val < 64 := j.isLt
  have hk : k.val < 64 := k.isLt
  exact congrArg x5 (funext fun a => Fin.ext (by
    match a with
    | ⟨0, _⟩ => rfl
    | ⟨1, _⟩ => show (j.val * 64 + k.val) / 64 % 64 = j.val; omega
    | ⟨2, _⟩ => show (j.val * 64 + k.val) % 64 = k.val; omega))

/-- The broadcast bias of hidden layer 2 of the scale perceptron: entry `(r, j)` is `bh[2, j]`. -/
theorem v64_read (x6 : (⟨S3x64, .f32⟩ : BufTy).Contents (Elt Ideal)) (r : Fin 524288) (j : Fin 64) :
    val_main_v64 (F := Ideal) x6 (ix2 r j) = x6 (ix2 (2 : Fin 3) j) := by
  rw [val_main_v64_apply, val_main_v63_apply, val_main_v62_apply, val_main_v61_apply]
  have hj : j.val < 64 := j.isLt
  exact congrArg x6 (funext fun a => Fin.ext (by
    match a with
    | ⟨0, _⟩ => rfl
    | ⟨1, _⟩ => show j.val % 64 = j.val; omega))

/-- The zero the rectifier of hidden layer 2 of the scale perceptron compares with. -/
theorem relu5_read (i : S524288x64.Idx) : val_main_call5_v0 (F := Ideal) i = Coupling.Z := by
  rw [val_main_call5_v0_apply, val_main_call5_cst_apply]
  rfl

/-- Hidden layer 2 of the scale perceptron, on the layer before it. -/
theorem v66_eq (x0 : (⟨S524288x128, .f32⟩ : BufTy).Contents (Elt Ideal)) (x5 : (⟨S3x64x64, .f32⟩ : BufTy).Contents (Elt Ideal))
    (x6 : (⟨S3x64, .f32⟩ : BufTy).Contents (Elt Ideal)) (r : Fin 524288) (j : Fin 64) :
    val_main_v66 (F := Ideal) x0 x5 x6 (ix2 r j) = Coupling.hidden x5 x6 2 (Coupling.hidden x5 x6 1 (Coupling.hidden x5 x6 0 (Coupling.masked x0 r))) j := by
  rw [val_main_v66_apply, val_main_v65_apply, val_main_v60_apply, relu5_read, v64_read]
  have hl : ∀ k : Fin 64, lidx_main_v60 (ix2 r j) k = ix2 r k := fun k =>
    funext fun a => Fin.ext (by match a with | ⟨0, _⟩ => rfl | ⟨1, _⟩ => rfl)
  have hr : ∀ k : Fin 64, ridx_main_v60 (ix2 r j) k = ix2 k j := fun k =>
    funext fun a => Fin.ext (by match a with | ⟨0, _⟩ => rfl | ⟨1, _⟩ => rfl)
  simp only [hl, hr, v56_eq, v59_read, Ideal.addf_def, Ideal.maximumf_def]
  rfl

/-- The transposed weight matrix of the output layer of the scale perceptron: entry `(k, j)` is `Wo[j, k]`. -/
theorem v67_read (x7 : (⟨S64x64, .f32⟩ : BufTy).Contents (Elt Ideal)) (k j : Fin 64) :
    val_main_v67 (F := Ideal) x7 (ix2 k j) = x7 (ix2 j k) := by
  rw [val_main_v67_apply]
  exact congrArg x7 (funext fun a => Fin.ext (by match a with | ⟨0, _⟩ => rfl | ⟨1, _⟩ => rfl))

/-- The broadcast bias of the output layer of the scale perceptron: entry `(r, j)` is `bo[j]`. -/
theorem v70_read (x8 : (⟨S64, .f32⟩ : BufTy).Contents (Elt Ideal)) (r : Fin 524288) (j : Fin 64) :
    val_main_v70 (F := Ideal) x8 (ix2 r j) = x8 (ix1 j) := by
  rw [val_main_v70_apply, val_main_v69_apply]
  exact congrArg x8 (funext fun a => Fin.ext (by match a with | ⟨0, _⟩ => rfl))

/-- The scale perceptron on the masked half of row `r`. -/
theorem v71_eq (x0 : (⟨S524288x128, .f32⟩ : BufTy).Contents (Elt Ideal)) (x5 : (⟨S3x64x64, .f32⟩ : BufTy).Contents (Elt Ideal))
    (x6 : (⟨S3x64, .f32⟩ : BufTy).Contents (Elt Ideal)) (x7 : (⟨S64x64, .f32⟩ : BufTy).Contents (Elt Ideal)) (x8 : (⟨S64, .f32⟩ : BufTy).Contents (Elt Ideal)) (r : Fin 524288) (j : Fin 64) :
    val_main_v71 (F := Ideal) x0 x5 x6 x7 x8 (ix2 r j) = Coupling.mlp x5 x6 x7 x8 (Coupling.masked x0 r) j := by
  rw [val_main_v71_apply, val_main_v68_apply, v70_read]
  have hl : ∀ k : Fin 64, lidx_main_v68 (ix2 r j) k = ix2 r k := fun k =>
    funext fun a => Fin.ext (by match a with | ⟨0, _⟩ => rfl | ⟨1, _⟩ => rfl)
  have hr : ∀ k : Fin 64, ridx_main_v68 (ix2 r j) k = ix2 k j := fun k =>
    funext fun a => Fin.ext (by match a with | ⟨0, _⟩ => rfl | ⟨1, _⟩ => rfl)
  simp only [hl, hr, v66_eq, v67_read, Ideal.addf_def]
  rfl

/-! ## The clip bounds

  The reference converts the integers `-5` and `3` to floats; the specification spells the same two numbers as
  float words. Both are the real numbers `-5` and `3`. -/

theorem lo_word : Coupling.Lo = ((-5 : ℝ) : EReal) := by
  show Ideal.ofBits .f32 0xC0A00000#32 = ((-5 : ℝ) : EReal)
  simp [Ideal.ofBits, Ideal.ieee]
  rw [← EReal.coe_mul]; norm_num

theorem hi_word : Coupling.Hi = ((3 : ℝ) : EReal) := by
  show Ideal.ofBits .f32 0x40400000#32 = ((3 : ℝ) : EReal)
  simp [Ideal.ofBits, Ideal.ieee]
  rw [← EReal.coe_mul]; norm_num

/-- The lower clip bound, broadcast: the integer `-5` read as a float. -/
theorem lo_read (i : S524288x64.Idx) : val_main_call6_v1 (F := Ideal) i = Coupling.Lo := by
  rw [val_main_call6_v1_apply, val_main_call6_v0_apply, val_main_c_apply, lo_word]
  show (((4294967291#32 : BitVec 32).toInt : ℝ) : EReal) = ((-5 : ℝ) : EReal)
  have h : (4294967291#32 : BitVec 32).toInt = -5 := by decide
  rw [h]; norm_num

/-- The upper clip bound, broadcast: the integer `3` read as a float. -/
theorem hi_read (i : S524288x64.Idx) : val_main_call6_v4 (F := Ideal) i = Coupling.Hi := by
  rw [val_main_call6_v4_apply, val_main_call6_v3_apply, val_main_c_0_apply, hi_word]
  show (((3#32 : BitVec 32).toInt : ℝ) : EReal) = ((3 : ℝ) : EReal)
  have h : (3#32 : BitVec 32).toInt = 3 := by decide
  rw [h]; norm_num

/-! ## The transformed half -/

/-- The clipped logarithm of the scale. -/
theorem v72_eq (x0 : (⟨S524288x128, .f32⟩ : BufTy).Contents (Elt Ideal)) (x5 : (⟨S3x64x64, .f32⟩ : BufTy).Contents (Elt Ideal)) (x6 : (⟨S3x64, .f32⟩ : BufTy).Contents (Elt Ideal)) (x7 : (⟨S64x64, .f32⟩ : BufTy).Contents (Elt Ideal)) (x8 : (⟨S64, .f32⟩ : BufTy).Contents (Elt Ideal)) (r : Fin 524288) (j : Fin 64) :
    val_main_v72 (F := Ideal) x0 x5 x6 x7 x8 (ix2 r j)
      = min Coupling.Hi (max Coupling.Lo (Coupling.mlp x5 x6 x7 x8 (Coupling.masked x0 r) j)) := by
  rw [val_main_v72_apply, val_main_call6_v2_apply, hi_read, lo_read, v71_eq]
  rfl

/-- The transformed entry: the upper half of the row times the exponential of the clipped logarithm of the scale, plus the shift. -/
theorem v75_eq (x0 : (⟨S524288x128, .f32⟩ : BufTy).Contents (Elt Ideal)) (x1 : (⟨S3x64x64, .f32⟩ : BufTy).Contents (Elt Ideal)) (x2 : (⟨S3x64, .f32⟩ : BufTy).Contents (Elt Ideal)) (x3 : (⟨S64x64, .f32⟩ : BufTy).Contents (Elt Ideal)) (x4 : (⟨S64, .f32⟩ : BufTy).Contents (Elt Ideal))
    (x5 : (⟨S3x64x64, .f32⟩ : BufTy).Contents (Elt Ideal)) (x6 : (⟨S3x64, .f32⟩ : BufTy).Contents (Elt Ideal)) (x7 : (⟨S64x64, .f32⟩ : BufTy).Contents (Elt Ideal)) (x8 : (⟨S64, .f32⟩ : BufTy).Contents (Elt Ideal)) (r : Fin 524288) (j : Fin 64) :
    val_main_v75 (F := Ideal) x0 x1 x2 x3 x4 x5 x6 x7 x8 (ix2 r j)
      = Coupling.transformed x0 x1 x2 x3 x4 x5 x6 x7 x8 r j := by
  rw [val_main_v75_apply, val_main_v74_apply, val_main_v73_apply, v72_eq, v1_read, v36_eq]
  rfl

/-! ## The first result: the two halves joined -/

/-- The two operands of the final concatenation, by position. -/
abbrev cat (x0 : (⟨S524288x128, .f32⟩ : BufTy).Contents (Elt Ideal)) (x1 : (⟨S3x64x64, .f32⟩ : BufTy).Contents (Elt Ideal)) (x2 : (⟨S3x64, .f32⟩ : BufTy).Contents (Elt Ideal)) (x3 : (⟨S64x64, .f32⟩ : BufTy).Contents (Elt Ideal)) (x4 : (⟨S64, .f32⟩ : BufTy).Contents (Elt Ideal))
    (x5 : (⟨S3x64x64, .f32⟩ : BufTy).Contents (Elt Ideal)) (x6 : (⟨S3x64, .f32⟩ : BufTy).Contents (Elt Ideal)) (x7 : (⟨S64x64, .f32⟩ : BufTy).Contents (Elt Ideal)) (x8 : (⟨S64, .f32⟩ : BufTy).Contents (Elt Ideal)) : Fin 2 → (⟨S524288x64, .f32⟩ : BufTy).Contents (Elt Ideal) := fun n => match n with
  | ⟨0, _⟩ => val_main_v0 (F := Ideal) x0
  | ⟨1, _⟩ => val_main_v75 (F := Ideal) x0 x1 x2 x3 x4 x5 x6 x7 x8

/-- A column of the lower half of the result comes from the first operand, the masked half. -/
theorem v76_lo (x0 : (⟨S524288x128, .f32⟩ : BufTy).Contents (Elt Ideal)) (x1 : (⟨S3x64x64, .f32⟩ : BufTy).Contents (Elt Ideal)) (x2 : (⟨S3x64, .f32⟩ : BufTy).Contents (Elt Ideal)) (x3 : (⟨S64x64, .f32⟩ : BufTy).Contents (Elt Ideal)) (x4 : (⟨S64, .f32⟩ : BufTy).Contents (Elt Ideal))
    (x5 : (⟨S3x64x64, .f32⟩ : BufTy).Contents (Elt Ideal)) (x6 : (⟨S3x64, .f32⟩ : BufTy).Contents (Elt Ideal)) (x7 : (⟨S64x64, .f32⟩ : BufTy).Contents (Elt Ideal)) (x8 : (⟨S64, .f32⟩ : BufTy).Contents (Elt Ideal)) (r : Fin 524288) (b : Fin 64) :
    val_main_v76 (F := Ideal) x0 x1 x2 x3 x4 x5 x6 x7 x8 (ix2 r (Coupling.lo b)) = val_main_v0 (F := Ideal) x0 (ix2 r b) := by
  have hb : b.val < 64 := b.isLt
  unfold val_main_v76
  show concatenate S524288x128 1 (List.ofFn fun n : Fin 2 => (⟨S524288x64, cat x0 x1 x2 x3 x4 x5 x6 x7 x8 n⟩ : (s : Shape) × (s.Idx → _))) _ (ix2 r (Coupling.lo b))
    = cat x0 x1 x2 x3 x4 x5 x6 x7 x8 (0 : Fin 2) (ix2 r b)
  exact concatenate_ofFn_apply (t := S524288x128) (s₁ := S524288x64) (1 : Fin 2) (cat x0 x1 x2 x3 x4 x5 x6 x7 x8) _ rfl 64 rfl
    (ix2 r (Coupling.lo b)) (0 : Fin 2) (by show b.val / 64 = 0; omega) (ix2 r b) (by show b.val = b.val % 64; omega)
    (fun c hc => by match c with | ⟨0, _⟩ => rfl | ⟨1, _⟩ => exact absurd rfl hc)

/-- A column of the upper half of the result comes from the second operand, the transformed half. -/
theorem v76_up (x0 : (⟨S524288x128, .f32⟩ : BufTy).Contents (Elt Ideal)) (x1 : (⟨S3x64x64, .f32⟩ : BufTy).Contents (Elt Ideal)) (x2 : (⟨S3x64, .f32⟩ : BufTy).Contents (Elt Ideal)) (x3 : (⟨S64x64, .f32⟩ : BufTy).Contents (Elt Ideal)) (x4 : (⟨S64, .f32⟩ : BufTy).Contents (Elt Ideal))
    (x5 : (⟨S3x64x64, .f32⟩ : BufTy).Contents (Elt Ideal)) (x6 : (⟨S3x64, .f32⟩ : BufTy).Contents (Elt Ideal)) (x7 : (⟨S64x64, .f32⟩ : BufTy).Contents (Elt Ideal)) (x8 : (⟨S64, .f32⟩ : BufTy).Contents (Elt Ideal)) (r : Fin 524288) (b : Fin 64) :
    val_main_v76 (F := Ideal) x0 x1 x2 x3 x4 x5 x6 x7 x8 (ix2 r (Coupling.up b))
      = val_main_v75 (F := Ideal) x0 x1 x2 x3 x4 x5 x6 x7 x8 (ix2 r b) := by
  have hb : b.val < 64 := b.isLt
  unfold val_main_v76
  show concatenate S524288x128 1 (List.ofFn fun n : Fin 2 => (⟨S524288x64, cat x0 x1 x2 x3 x4 x5 x6 x7 x8 n⟩ : (s : Shape) × (s.Idx → _))) _ (ix2 r (Coupling.up b))
    = cat x0 x1 x2 x3 x4 x5 x6 x7 x8 (1 : Fin 2) (ix2 r b)
  exact concatenate_ofFn_apply (t := S524288x128) (s₁ := S524288x64) (1 : Fin 2) (cat x0 x1 x2 x3 x4 x5 x6 x7 x8) _ rfl 64 rfl
    (ix2 r (Coupling.up b)) (1 : Fin 2) (by show (64 + b.val) / 64 = 1; omega) (ix2 r b) (by show b.val = (64 + b.val) % 64; omega)
    (fun c hc => by match c with | ⟨0, _⟩ => rfl | ⟨1, _⟩ => exact absurd rfl hc)

/-- The reference's first result is the specification's first result. -/
theorem ref_y (x0 : (⟨S524288x128, .f32⟩ : BufTy).Contents (Elt Ideal)) (x1 : (⟨S3x64x64, .f32⟩ : BufTy).Contents (Elt Ideal)) (x2 : (⟨S3x64, .f32⟩ : BufTy).Contents (Elt Ideal)) (x3 : (⟨S64x64, .f32⟩ : BufTy).Contents (Elt Ideal)) (x4 : (⟨S64, .f32⟩ : BufTy).Contents (Elt Ideal))
    (x5 : (⟨S3x64x64, .f32⟩ : BufTy).Contents (Elt Ideal)) (x6 : (⟨S3x64, .f32⟩ : BufTy).Contents (Elt Ideal)) (x7 : (⟨S64x64, .f32⟩ : BufTy).Contents (Elt Ideal)) (x8 : (⟨S64, .f32⟩ : BufTy).Contents (Elt Ideal)) :
    Cert.ReferenceIdeal.Read.val_main_v76 (F := Ideal) x0 x1 x2 x3 x4 x5 x6 x7 x8 = Coupling.outY x0 x1 x2 x3 x4 x5 x6 x7 x8 := by
  funext i
  obtain ⟨r, j, rfl⟩ : ∃ (r : Fin 524288) (j : Fin 128), i = ix2 r j := ⟨i 0, i 1, eq_ix2 i⟩
  rcases Coupling.lo_or_up j with ⟨b, rfl⟩ | ⟨b, rfl⟩
  · rw [v76_lo, v0_read, Coupling.outY_lo]
  · rw [v76_up, v75_eq, Coupling.outY_up]

/-! ## The second result: the sum of the unclipped logarithms of the scale -/

/-- The reference's second result is the specification's second result. -/
theorem ref_ld (x0 : (⟨S524288x128, .f32⟩ : BufTy).Contents (Elt Ideal)) (x5 : (⟨S3x64x64, .f32⟩ : BufTy).Contents (Elt Ideal)) (x6 : (⟨S3x64, .f32⟩ : BufTy).Contents (Elt Ideal)) (x7 : (⟨S64x64, .f32⟩ : BufTy).Contents (Elt Ideal)) (x8 : (⟨S64, .f32⟩ : BufTy).Contents (Elt Ideal)) :
    Cert.ReferenceIdeal.Read.val_main_v77 (F := Ideal) x0 x5 x6 x7 x8 = Coupling.outL x0 x5 x6 x7 x8 := by
  funext i
  obtain ⟨r, rfl⟩ : ∃ r : Fin 524288, i = ix1 r := ⟨i 0, eq_ix1 i⟩
  rw [val_main_v77_apply, val_main_cst_apply]
  have hi : ∀ k : Fin 64, idx_main_v77 (ix1 r) k = ix2 r k := fun k =>
    funext fun a => Fin.ext (by match a with | ⟨0, _⟩ => rfl | ⟨1, _⟩ => rfl)
  simp only [hi, v71_eq, Ideal.ofBits_def, Ideal.ofBits_zero_f32, zero_add]
  rfl

end Cert.ReferenceIdeal.RefSpec

end
-- ==== Proof.lean ====
/-
  A masked affine coupling layer: the fused kernel against the twin-perceptron reference, on the extended reals.

  Each row `x` of 128 features keeps its first 64 entries and feeds them to two perceptrons (three hidden layers
  `h ↦ max (W h + b) 0` of width 64, then an affine layer): "cond" gives a shift, "scale" the logarithm of a scale;
  the last 64 entries become `x · exp (min 3 (max (-5) log_scale)) + shift`, and the second result is the row sum of
  the unclipped `log_scale`.

  The reference computes the two perceptrons one after the other. The kernel stacks them into one chain of
  128-wide layers whose weight matrices, assembled before the launch, put the two first-layer matrices side by
  side and the later pairs on the diagonal of a block matrix with zero off-diagonal blocks; it handles 8192 rows
  per grid point. On the extended reals a zero block contributes `a · 0 = 0` for every `a`, and a sum over 128
  indices splits into its two halves in any order, so the lower half of every fused layer is the cond perceptron's
  layer and the upper half the scale perceptron's: no finiteness of the inputs is used. Changes of float format
  are the identity there, the clip bounds are the same two constants on both sides, and the exponential is one
  function, so the two programs leave the same two arrays.

  The modules: `Spec` (the layer as one function of the arguments, index by index), `Fused` (a block-diagonal
  chain is two chains), `RefSpec` (the reference's two results are the specification), `KMatmul`, `Payload`,
  `Outputs` (the kernel body's arithmetic read at an index), `Weights` (the operand arrays the launch finds are
  the fused parameters), `Bridge` (a block of the body's outputs is a block of the specification), `Blocks` (the
  64 written blocks cover the result arrays).
-/
import proofs.«161588_j34583076667869_2_alg».proof.Defs
import proofs.«161588_j34583076667869_2_alg».proof.Proof.Gen.Kernel
import proofs.«161588_j34583076667869_2_alg».proof.Proof.Gen.Kernel.Skeleton
import proofs.«161588_j34583076667869_2_alg».proof.Proof.Gen.Kernel.Launch
import proofs.«161588_j34583076667869_2_alg».proof.Proof.Gen.Kernel.Points
import proofs.«161588_j34583076667869_2_alg».proof.Proof.Gen.Kernel.Frame
import proofs.«161588_j34583076667869_2_alg».proof.Proof.Gen.KernelIdeal
import proofs.«161588_j34583076667869_2_alg».proof.Proof.Gen.KernelIdeal.Skeleton
import proofs.«161588_j34583076667869_2_alg».proof.Proof.Gen.KernelIdeal.Launch
import proofs.«161588_j34583076667869_2_alg».proof.Proof.Gen.KernelIdeal.Points
import proofs.«161588_j34583076667869_2_alg».proof.Proof.Gen.KernelIdeal.Frame
import proofs.«161588_j34583076667869_2_alg».proof.Proof.Gen.ReferenceIdeal
import proofs.«161588_j34583076667869_2_alg».proof.Proof.Gen.KernelIdeal.Value
import proofs.«161588_j34583076667869_2_alg».proof.Proof.Gen.ReferenceIdeal.Run
import proofs.«161588_j34583076667869_2_alg».proof.Proof.Gen.ReferenceIdeal.Read
import proofs.«161588_j34583076667869_2_alg».proof.Proof.Gen.Pre_finite_inputs
import proofs.«161588_j34583076667869_2_alg».proof.Proof.Blocks
import proofs.«161588_j34583076667869_2_alg».proof.Proof.Weights
import proofs.«161588_j34583076667869_2_alg».proof.Proof.RefSpec
import Idealize.ShloMosaic.Adequacy
import Idealize.ShloMosaic.Init

noncomputable section

namespace Cert.Proof

open Idealize.ShloMosaic Idealize.SL.Sem

/-- The word-level kernel runs, faults nowhere and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the coupling layer of the arguments in the first result and the row sums of the
    log-scales in the second: the kernel block by block through the fused chain, the reference through its two
    perceptrons; the arguments agree, so the results do. -/
theorem algebraic : Cert.algebraic_KernelIdeal_ReferenceIdeal := by
  intro m ρ m' ρ' _ hagree
  refine ⟨fun c => Cert.KernelIdeal.Blocks.resY m c, fun c => Cert.KernelIdeal.Blocks.resL m c,
    Cert.KernelIdeal.Blocks.run m ρ (fun c => Cert.KernelIdeal.Weights.fusion m c), ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  refine ⟨?_, ?_, (h c).2.2⟩
  · rw [(h c).1, Cert.ReferenceIdeal.Read.val_main_v76_eq, Cert.ReferenceIdeal.RefSpec.ref_y, a0, a1, a2, a3, a4, a5, a6, a7, a8]
  · refine (h c).2.1.trans ((Cert.ReferenceIdeal.Read.val_main_v77_eq _ _ _ _ _).trans ?_)
    rw [Cert.ReferenceIdeal.RefSpec.ref_ld, a0, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
